-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4096x16384 .f32) (main_arg2 : FVec F S128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S4x1x32 : Shape := ⟨3, ![4, 1, 32]⟩
abbrev S32x4096 : Shape := ⟨2, ![32, 4096]⟩
abbrev S2048x2048 : Shape := ⟨2, ![2048, 2048]⟩
abbrev S32x2048 : Shape := ⟨2, ![32, 2048]⟩
abbrev S16384x32 : Shape := ⟨2, ![16384, 32]⟩
abbrev S32x128 : Shape := ⟨2, ![32, 128]⟩
abbrev S4096x32 : Shape := ⟨2, ![4096, 32]⟩
abbrev S1x1x32 : Shape := ⟨3, ![1, 1, 32]⟩
abbrev S1x32 : Shape := ⟨2, ![1, 32]⟩
abbrev S2048x32 : Shape := ⟨2, ![2048, 32]⟩

abbrev nBuf : Space → Nat
  | .hbm => 7
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x16384, .f32⟩
  | .hbm, ⟨2, _⟩ => ⟨S128x128, .f32⟩
  | .hbm, ⟨3, _⟩ => ⟨S128, .f32⟩
  | .hbm, ⟨4, _⟩ => ⟨S4x1x32, .f32⟩
  | .hbm, ⟨5, _⟩ => ⟨S32x4096, .f32⟩
  | .hbm, ⟨6, _⟩ => ⟨S4096x32, .f32⟩
  | .local _ .vmem, ⟨0, _⟩ => ⟨S4096x128, .f32⟩
  | .local _ .vmem, ⟨1, _⟩ => ⟨S128x128, .f32⟩
  | .local _ .vmem, ⟨2, _⟩ => ⟨S4x1x32, .f32⟩
  | .local _ .vmem, ⟨3, _⟩ => ⟨S2048x2048, .f32⟩
  | .local _ .vmem, ⟨4, _⟩ => ⟨S2048x2048, .f32⟩
  | .local _ .vmem, ⟨5, _⟩ => ⟨S32x2048, .f32⟩
  | .local _ .vmem, ⟨6, _⟩ => ⟨S32x2048, .f32⟩
  | .local _ .vmem, ⟨7, _⟩ => ⟨S16384x32, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : Index := Scalar.indexCast v5
  let c0 : Index := 0#32
  ![v6.toNat, 0]
def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S4x1x32 : S128.ShapeCasts S4x1x32
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S128x128_o0_0_S32x128 : S128x128.Slices ![0, 0] S32x128
  inb_S4x1x32_S1x1x32_0_0_0 : ∀ a, (![0, 0, 0] : Fin 3 → Nat) a + S1x1x32.size a ≤ S4x1x32.size a
  h_S1x1x32 : 0 < S1x1x32.numel
  shapeCasts_S1x1x32_S1x32 : S1x1x32.ShapeCasts S1x32
  broadcasts_S1x32_S4096x32 : S1x32.Broadcasts S4096x32
  inb_S16384x32_S4096x32_0_0 : ∀ a, (![0, 0] : Fin 2 → Nat) a + S4096x32.size a ≤ S16384x32.size a
  h_S4096x32 : 0 < S4096x32.numel
  shapeCasts_S4096x32_S4096x32 : S4096x32.ShapeCasts S4096x32
  packedbf16_S16384x32_S4096x32_0_0 : (Rect.unit (s := S16384x32) ![0, 0] S4096x32.size inb_S16384x32_S4096x32_0_0).PackedRows (EltTy.packing .bf16)
  slices_S128x128_o32_0_S32x128 : S128x128.Slices ![32, 0] S32x128
  inb_S4x1x32_S1x1x32_1_0_0 : ∀ a, (![1, 0, 0] : Fin 3 → Nat) a + S1x1x32.size a ≤ S4x1x32.size a
  inb_S16384x32_S4096x32_4096_0 : ∀ a, (![4096, 0] : Fin 2 → Nat) a + S4096x32.size a ≤ S16384x32.size a
  packedbf16_S16384x32_S4096x32_4096_0 : (Rect.unit (s := S16384x32) ![4096, 0] S4096x32.size inb_S16384x32_S4096x32_4096_0).PackedRows (EltTy.packing .bf16)
  slices_S128x128_o64_0_S32x128 : S128x128.Slices ![64, 0] S32x128
  inb_S4x1x32_S1x1x32_2_0_0 : ∀ a, (![2, 0, 0] : Fin 3 → Nat) a + S1x1x32.size a ≤ S4x1x32.size a
  inb_S16384x32_S4096x32_8192_0 : ∀ a, (![8192, 0] : Fin 2 → Nat) a + S4096x32.size a ≤ S16384x32.size a
  packedbf16_S16384x32_S4096x32_8192_0 : (Rect.unit (s := S16384x32) ![8192, 0] S4096x32.size inb_S16384x32_S4096x32_8192_0).PackedRows (EltTy.packing .bf16)
  slices_S128x128_o96_0_S32x128 : S128x128.Slices ![96, 0] S32x128
  inb_S4x1x32_S1x1x32_3_0_0 : ∀ a, (![3, 0, 0] : Fin 3 → Nat) a + S1x1x32.size a ≤ S4x1x32.size a
  inb_S16384x32_S4096x32_12288_0 : ∀ a, (![12288, 0] : Fin 2 → Nat) a + S4096x32.size a ≤ S16384x32.size a
  packedbf16_S16384x32_S4096x32_12288_0 : (Rect.unit (s := S16384x32) ![12288, 0] S4096x32.size inb_S16384x32_S4096x32_12288_0).PackedRows (EltTy.packing .bf16)
  h_S2048x32 : 0 < S2048x32.numel
  inb_S2048x2048_S2048x2048_0_0 : ∀ a, (![0, 0] : Fin 2 → Nat) a + S2048x2048.size a ≤ S2048x2048.size a
  h_S2048x2048 : 0 < S2048x2048.numel
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  transposes_S32x4096_S4096x32_1_0 : S32x4096.Transposes [1, 0] S4096x32
  dot_S4096x128_S32x128_S4096x32_1_1_0_0_n_n_wf : DotDims.WF S4096x128 S32x128 S4096x32 [1] [1] [0] [0] [] []
  dot_S2048x32_S2048x2048_S32x2048_0_1_1_0_n_n_wf : DotDims.WF S2048x32 S2048x2048 S32x2048 [0] [1] [1] [0] [] []
  hrank0 : 0 < grid0.rank
  k0_off1_inb : ∀ i : grid0.Coords, ∀ a, (k0_off1 i) a + S2048x32.size a ≤ S16384x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x32.size a ≤ S4x1x32.size a
  hwx0_2 : ∀ i : grid0.Coords, EltTy.bits .f32 = 32 ∨ (Rect.block (s := S4x1x32) S4x1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x16384.size a
  hwx0_3 : ∀ i : grid0.Coords, EltTy.bits .f32 = 32 ∨ (Rect.block (s := S4096x16384) S2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x4096.size a
  hwx0_4 : ∀ i : grid0.Coords, EltTy.bits .f32 = 32 ∨ (Rect.block (s := S32x4096) S32x2048.size (cc0_transform_4 i) (hinb0_4 i)).WholeWords (EltTy.packing .f32)

variable [Facts₀]

def dot_S4096x128_S32x128_S4096x32_1_1_0_0_n_n : DotDims S4096x128 S32x128 S4096x32 where
  lhsContracting := [1]
  rhsContracting := [1]
  lhsNonContracting := [0]
  rhsNonContracting := [0]
  lhsBatch := []
  rhsBatch := []
  wf := dot_S4096x128_S32x128_S4096x32_1_1_0_0_n_n_wf
def dot_S2048x32_S2048x2048_S32x2048_0_1_1_0_n_n : DotDims S2048x32 S2048x2048 S32x2048 where
  lhsContracting := [0]
  rhsContracting := [1]
  lhsNonContracting := [1]
  rhsNonContracting := [0]
  lhsBatch := []
  rhsBatch := []
  wf := dot_S2048x32_S2048x2048_S32x2048_0_1_1_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x16384 : Shape := ⟨2, ![4096, 16384]⟩
abbrev S128x128 : Shape := ⟨2, ![128, 128]⟩
abbrev S128 : Shape := ⟨1, ![128]⟩
abbrev S1x128 : Shape := ⟨2, ![1, 128]⟩
abbrev S4096x4x32 : Shape := ⟨3, ![4096, 4, 32]⟩
abbrev S4x4096x32 : Shape := ⟨3, ![4, 4096, 32]⟩
abbrev S16384x32 : Shape := ⟨2, ![16384, 32]⟩
abbrev S4096x32 : Shape := ⟨2, ![4096, 32]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S4096x128, .f32⟩
  | .hbm, ⟨6, _⟩ => ⟨S1x128, .f32⟩
  | .hbm, ⟨7, _⟩ => ⟨S4096x128, .f32⟩
  | .hbm, ⟨8, _⟩ => ⟨S4096x128, .f32⟩
  | .hbm, ⟨9, _⟩ => ⟨S4096x4x32, .f32⟩
  | .hbm, ⟨10, _⟩ => ⟨S4x4096x32, .f32⟩
  | .hbm, ⟨11, _⟩ => ⟨S16384x32, .f32⟩
  | .hbm, ⟨12, _⟩ => ⟨S4096x32, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  shapeCasts_S4096x128_S4096x4x32 : S4096x128.ShapeCasts S4096x4x32
  transposes_S4096x4x32_S4x4096x32_1_0_2 : S4096x4x32.Transposes [1, 0, 2] S4x4096x32
  shapeCasts_S4x4096x32_S16384x32 : S4x4096x32.ShapeCasts S16384x32
  dot_S4096x128_S128x128_S4096x128_1_0_0_1_n_n_wf : DotDims.WF S4096x128 S128x128 S4096x128 [1] [0] [0] [1] [] []
  dot_S4096x16384_S16384x32_S4096x32_1_0_0_1_n_n_wf : DotDims.WF S4096x16384 S16384x32 S4096x32 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x16384_S16384x32_S4096x32_1_0_0_1_n_n : DotDims S4096x16384 S16384x32 S4096x32 where
  lhsContracting := [1]
  rhsContracting := [0]
  lhsNonContracting := [0]
  rhsNonContracting := [1]
  lhsBatch := []
  rhsBatch := []
  wf := dot_S4096x16384_S16384x32_S4096x32_1_0_0_1_n_n_wf

class Facts : Prop extends Facts₀ where

variable [Facts]
-- ==== Proof.ControlBits.lean ====
/-
  The control of the fused kernel over its 2 x 8 grid (point t = 8 i + k, row tile i, reduction tile k).
  Three conditions of the grid coordinates decide what a point does:
    * the projection h = x W^T + b is computed into the scratch only at the very first point (i = 0 and k = 0);
    * the output tile is overwritten by the point's partial product where k = 0;
    * the partial product is added to it where k > 0.
  Each is decided over the sixteen points; together they leave three kinds of points: the first point
  (projection, then overwrite), the points with k > 0 (accumulate), and point 8 (overwrite, no projection).
  The output window is never idle: every point stores into its tile.
-/
import proofs.«111286_g16793322127443_cont_week2b_1270_43_alg».proof.Proof.Gen.Kernel.Frame
import proofs.«111286_g16793322127443_cont_week2b_1270_43_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "This is the first point of the grid" as the body computes it: (i = 0) and (k = 0), widened and compared with zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "k = 0": the point opens a reduction, its partial product overwrites the output tile. -/
abbrev isOpen (i : grid0.Coords) : Prop := k0_cond2 i = 1#1
/-- It holds at the points that are multiples of 8. -/
theorem isOpen_iff : ∀ t : Fin cfg0.N, isOpen (grid0.coords t) ↔ t.val % 8 = 0 :=
  (by decide +kernel : ∀ t : Fin grid0.N, isOpen (grid0.coords t) ↔ t.val % 8 = 0)

/-- "k > 0": the point continues a reduction, its partial product is added to the output tile. -/
abbrev isCont (i : grid0.Coords) : Prop := k0_cond3 i = 1#1
/-- It holds at the other points. -/
theorem isCont_iff : ∀ t : Fin cfg0.N, isCont (grid0.coords t) ↔ t.val % 8 ≠ 0 :=
  (by decide +kernel : ∀ t : Fin grid0.N, isCont (grid0.coords t) ↔ t.val % 8 ≠ 0)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Every point has k = 0 or k > 0, so every point stores into the output tile. -/
theorem live4 : ∀ t : Fin cfg0.N, cfg0.idle 4 (grid0.coords t) = false := by decide +kernel

/-! ## The memrefs the body is called with -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x2048 .f32 := win0_4.stage (cfg0.slots t 4)
abbrev hs4 (t : Fin cfg0.N) : (ms4 t).IsWhole := hstage0_4 ((cfg0.slots t 4).cast nbuf0_4)
/-- The scratch that holds the projection h, all 16384 x 32 of it. -/
abbrev scM : Memref sig .tc .vmem S16384x32 .bf16 := Memref.whole cc0_scratch0
/-- The view through which the scratch's contents are stated. -/
abbrev VS : View sig .tc .vmem S16384x32 .bf16 := (scM).view
/-- One staging buffer of the output window, through which an output tile's contents are stated. -/
abbrev VO : View sig .tc .vmem S32x2048 .f32 := (Memref.whole cc0_stg4_0 : Memref sig .tc .vmem S32x2048 .f32).view

/-- The region's class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.FirstBits.lean ====
/-
  The body at the FIRST point of the grid (i = 0, k = 0). Here, and only here, the projection h = x W^T + b is computed:
  for each of the four bond types t the 4096 x 32 block x · W[32 t .. 32 t + 31, :]^T + b[t] is stored into rows
  4096 t .. 4096 t + 4095 of the scratch, so that the four stores fill all 16384 rows. Then, as at every point that opens
  a reduction, rows 0 .. 2047 of the scratch are multiplied with the point's tile of the adjacency matrix and the
  product overwrites the output tile.
-/
import proofs.«111286_g16793322127443_cont_week2b_1270_43_alg».proof.Proof.ControlBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the output tile and in the scratch at the first point, with the proof that from
    whole memrefs — the four inputs at their contents, the output tile and the scratch at anything — the body runs to its
    end, the inputs as they were, the output tile and the scratch with those pieces written. -/
noncomputable def runFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : isFirst i) (ho : isOpen i) (hc : ¬isCont i)
    (x0 : Vec F S4096x128 .f32) (x1 : Vec F S128x128 .f32) (x2 : Vec F S4x1x32 .f32) (x3 : Vec F S2048x2048 .f32) :
    Σ' (L4 : List (View.Piece (Elt F) S32x2048 .f32)), { LS : List (View.Piece (Elt F) S16384x32 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Body

end
-- ==== Proof.OpenBits.lean ====
/-
  The body at a point that OPENS a reduction without being the first point of the grid (point 8: k = 0, i = 1).
  The projection is already in the scratch; the body reads its rows 0 .. 2047, multiplies them with the point's tile of
  the adjacency matrix and overwrites the output tile with the 32 x 2048 product, whatever the tile held.
-/
import proofs.«111286_g16793322127443_cont_week2b_1270_43_alg».proof.Proof.ControlBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile at such a point, with the proof that from whole memrefs — the
    four inputs at their contents, the output tile at anything, the scratch at the projection it carries (`xs`) — the
    body runs to its end, the inputs and the scratch as they were, the output tile with those pieces written. -/
noncomputable def runOpen (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) :
    { L4 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Body

end
-- ==== Proof.ContBits.lean ====
/-
  The body at a point that CONTINUES a reduction (k > 0; not the first point). It computes nothing into the scratch:
  it reads rows 2048 k .. 2048 k + 2047 of the projection there, multiplies them (contracting those rows) with the
  point's 2048 x 2048 tile of the adjacency matrix, and adds the 32 x 2048 product to what the output tile already holds.
  The run is symbolic in the memrefs and in what they hold; what it leaves in the output tile is found by the run.
-/
import proofs.«111286_g16793322127443_cont_week2b_1270_43_alg».proof.Proof.ControlBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile at a continuing point, with the proof that from whole
    memrefs — the four inputs at their contents, the output tile at what the point before left (`xo`), the scratch at the
    projection it carries (`xs`) — the body runs to its end, the inputs and the scratch as they were, the output tile
    with those pieces written. -/
noncomputable def runCont (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) :
    { L4 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Body

end
-- ==== Proof.PointsBits.lean ====
/-
  What the output tile and the scratch hold after every point of the grid, and the frame of the whole program from it.

  The scratch is written at the first point only and holds the projection from then on; the output tile is overwritten
  where a reduction opens (k = 0) and added to where it continues (k > 0), so after point t = 8 i + k it holds the sum of
  the partial products of reduction tiles 0 .. k of row tile i; the pipeline writes it back after k = 7.  Both are
  defined by recursion on the point from what the three runs of the body leave.  With the scratch's contents carried in
  the region's invariant and the output tile's in the pipeline's own bookkeeping, every point's run applies, which is
  the body obligation of the launch; the launch then gives the run of @main and the frame.
-/
import proofs.«111286_g16793322127443_cont_week2b_1270_43_alg».proof.Proof.FirstBits
import proofs.«111286_g16793322127443_cont_week2b_1270_43_alg».proof.Proof.OpenBits
import proofs.«111286_g16793322127443_cont_week2b_1270_43_alg».proof.Proof.ContBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves: its stores cover the buffer, so the contents are the stores read back -/

/-- The first point's one store into the output tile covers it. -/
theorem coverFirstTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) (y : S32x2048.Idx) : ∃ pc ∈ (runFirst c i arg2 harg2 arg3 harg3 arg4 harg4 arg5 harg5 arg6 harg6 arg7 harg7 hf ho hc x0 x1 x2 x3).1, y ∈ pc.1.set :=
  View.cover_of_tiledL (runFirst c i arg2 harg2 arg3 harg3 arg4 harg4 arg5 harg5 arg6 harg6 arg7 harg7 hf ho hc x0 x1 x2 x3).1 S32x2048.size (by sl_kernel_rfl) y

/-- The first point's four stores of 4096 rows each tile the 16384 rows of the scratch. -/
theorem coverFirstProj (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) (y : S16384x32.Idx) : ∃ pc ∈ (runFirst c i arg2 harg2 arg3 harg3 arg4 harg4 arg5 harg5 arg6 harg6 arg7 harg7 hf ho hc x0 x1 x2 x3).2.1, y ∈ pc.1.set :=
  View.cover_of_tiledL (runFirst c i arg2 harg2 arg3 harg3 arg4 harg4 arg5 harg5 arg6 harg6 arg7 harg7 hf ho hc x0 x1 x2 x3).2.1 S4096x32.size (by sl_kernel_rfl) y

/-- The output tile after the first point. -/
def tileFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) : Vec F S32x2048 .f32 :=
  VO.read (Elt F) (VO.writes (Elt F) VO.junk (runFirst c i arg2 harg2 arg3 harg3 arg4 harg4 arg5 harg5 arg6 harg6 arg7 harg7 hf ho hc x0 x1 x2 x3).1)

/-- The scratch after the first point: the projection. -/
def projFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) : Vec F S16384x32 .bf16 :=
  VS.read (Elt F) (VS.writes (Elt F) VS.junk (runFirst c i arg2 harg2 arg3 harg3 arg4 harg4 arg5 harg5 arg6 harg6 arg7 harg7 hf ho hc x0 x1 x2 x3).2.1)

/-- The one store at a point that opens a reduction covers the output tile. -/
theorem coverOpenTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) (y : S32x2048.Idx) : ∃ pc ∈ (runOpen c i arg2 harg2 arg3 harg3 arg4 harg4 arg5 harg5 arg6 harg6 arg7 harg7 hf ho hc x0 x1 x2 x3 xs).1, y ∈ pc.1.set :=
  View.cover_of_tiledL (runOpen c i arg2 harg2 arg3 harg3 arg4 harg4 arg5 harg5 arg6 harg6 arg7 harg7 hf ho hc x0 x1 x2 x3 xs).1 S32x2048.size (by sl_kernel_rfl) y

/-- The output tile after such a point. -/
def tileOpen (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) : Vec F S32x2048 .f32 :=
  VO.read (Elt F) (VO.writes (Elt F) VO.junk (runOpen c i arg2 harg2 arg3 harg3 arg4 harg4 arg5 harg5 arg6 harg6 arg7 harg7 hf ho hc x0 x1 x2 x3 xs).1)

/-- The one store at a point that continues a reduction covers the output tile. -/
theorem coverContTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) (y : S32x2048.Idx) :
    ∃ pc ∈ (runCont c i arg2 harg2 arg3 harg3 arg4 harg4 arg5 harg5 arg6 harg6 arg7 harg7 hf ho hc x0 x1 x2 x3 xo xs).1, y ∈ pc.1.set :=
  View.cover_of_tiledL (runCont c i arg2 harg2 arg3 harg3 arg4 harg4 arg5 harg5 arg6 harg6 arg7 harg7 hf ho hc x0 x1 x2 x3 xo xs).1 S32x2048.size (by sl_kernel_rfl) y

/-- The output tile after such a point. -/
def tileCont (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) : Vec F S32x2048 .f32 :=
  VO.read (Elt F) (VO.writes (Elt F) VO.junk (runCont c i arg2 harg2 arg3 harg3 arg4 harg4 arg5 harg5 arg6 harg6 arg7 harg7 hf ho hc x0 x1 x2 x3 xo xs).1)

/-! ## The output tile and the scratch after each point -/

/-- After point `n`: (the output tile, the scratch).  The first point computes both from the input blocks; a later point
    leaves the scratch as it found it and either overwrites the tile (n a multiple of 8) or adds to what point n - 1 left. -/
def outsAt (c : Dev nD) : (n : ℕ) → n < cfg0.N → Vec F S32x2048 .f32 × Vec F S16384x32 .bf16
  | 0, hn =>
    (tileFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _)
        ((isFirst_iff ⟨0, hn⟩).mpr rfl) ((isOpen_iff ⟨0, hn⟩).mpr (Nat.zero_mod _)) (fun h => (isCont_iff ⟨0, hn⟩).mp h (Nat.zero_mod _))
        (iblk m c 0 ⟨0, hn⟩) (iblk m c 1 ⟨0, hn⟩) (iblk m c 2 ⟨0, hn⟩) (iblk m c 3 ⟨0, hn⟩),
     projFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _)
        ((isFirst_iff ⟨0, hn⟩).mpr rfl) ((isOpen_iff ⟨0, hn⟩).mpr (Nat.zero_mod _)) (fun h => (isCont_iff ⟨0, hn⟩).mp h (Nat.zero_mod _))
        (iblk m c 0 ⟨0, hn⟩) (iblk m c 1 ⟨0, hn⟩) (iblk m c 2 ⟨0, hn⟩) (iblk m c 3 ⟨0, hn⟩))
  | n + 1, hn =>
    if h8 : (n + 1) % 8 = 0 then
      (tileOpen c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
          (fun h => absurd ((isFirst_iff ⟨n + 1, hn⟩).mp h) (Nat.succ_ne_zero n)) ((isOpen_iff ⟨n + 1, hn⟩).mpr h8) (fun h => (isCont_iff ⟨n + 1, hn⟩).mp h h8)
          (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       (outsAt c n (Nat.lt_of_succ_lt hn)).2)
    else
      (tileCont c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
          (fun h => absurd ((isFirst_iff ⟨n + 1, hn⟩).mp h) (Nat.succ_ne_zero n)) (fun h => h8 ((isOpen_iff ⟨n + 1, hn⟩).mp h)) ((isCont_iff ⟨n + 1, hn⟩).mpr h8)
          (iblk m c 0 ⟨n + 1, hn⟩) (iblk m c 1 ⟨n + 1, hn⟩) (iblk m c 2 ⟨n + 1, hn⟩) (iblk m c 3 ⟨n + 1, hn⟩) (outsAt c n (Nat.lt_of_succ_lt hn)).1 (outsAt c n (Nat.lt_of_succ_lt hn)).2,
       (outsAt c n (Nat.lt_of_succ_lt hn)).2)

/-- At the first point. -/
theorem outsAt_first (c : Dev nD) (t : Fin cfg0.N) (hz : t.val = 0) :
    outsAt m c t.val t.isLt =
      (tileFirst c (grid0.coords t) (ms0 t) (hs0 t) (ms1 t) (hs1 t) (ms2 t) (hs2 t) (ms3 t) (hs3 t) (ms4 t) (hs4 t) scM (Memref.isWhole_whole _)
          ((isFirst_iff t).mpr hz) ((isOpen_iff t).mpr (by rw [hz])) (fun h => (isCont_iff t).mp h (by rw [hz]))
          (iblk m c 0 t) (iblk m c 1 t) (iblk m c 2 t) (iblk m c 3 t),
       projFirst c (grid0.coords t) (ms0 t) (hs0 t) (ms1 t) (hs1 t) (ms2 t) (hs2 t) (ms3 t) (hs3 t) (ms4 t) (hs4 t) scM (Memref.isWhole_whole _)
          ((isFirst_iff t).mpr hz) ((isOpen_iff t).mpr (by rw [hz])) (fun h => (isCont_iff t).mp h (by rw [hz]))
          (iblk m c 0 t) (iblk m c 1 t) (iblk m c 2 t) (iblk m c 3 t)) := by
  obtain ⟨n, hn⟩ := t
  cases n with
  | zero => exact rfl
  | succ n => exact absurd hz (Nat.succ_ne_zero n)

/-- At a later point that opens a reduction. -/
theorem outsAt_open (c : Dev nD) (t : Fin cfg0.N) (hz : t.val ≠ 0) (h8 : t.val % 8 = 0) :
    outsAt m c t.val t.isLt =
      (tileOpen c (grid0.coords t) (ms0 t) (hs0 t) (ms1 t) (hs1 t) (ms2 t) (hs2 t) (ms3 t) (hs3 t) (ms4 t) (hs4 t) scM (Memref.isWhole_whole _)
          (fun h => hz ((isFirst_iff t).mp h)) ((isOpen_iff t).mpr h8) (fun h => (isCont_iff t).mp h h8)
          (iblk m c 0 t) (iblk m c 1 t) (iblk m c 2 t) (iblk m c 3 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl hz
  | succ n => exact (dif_pos h8).trans rfl

/-- At a point that continues a reduction. -/
theorem outsAt_cont (c : Dev nD) (t : Fin cfg0.N) (h8 : ¬t.val % 8 = 0) :
    outsAt m c t.val t.isLt =
      (tileCont c (grid0.coords t) (ms0 t) (hs0 t) (ms1 t) (hs1 t) (ms2 t) (hs2 t) (ms3 t) (hs3 t) (ms4 t) (hs4 t) scM (Memref.isWhole_whole _)
          (fun h => h8 (by rw [(isFirst_iff t).mp h])) (fun h => h8 ((isOpen_iff t).mp h)) ((isCont_iff t).mpr h8)
          (iblk m c 0 t) (iblk m c 1 t) (iblk m c 2 t) (iblk m c 3 t) (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd (Nat.zero_mod 8) h8
  | succ n => exact (dif_neg h8).trans rfl

/-! ## The region's invariant: the scratch at the projection once it is computed -/

/-- Before point `n`: before the first point the scratch holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's bookkeeping -/

/-- On core `c`: the arrays as the region finds them; after the body each input's buffer at its block and the output's at
    the tile `outsAt` names; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Whatever the grid coordinates, one of k = 0 and k > 0 holds: the output window is idle nowhere. -/
theorem live4_all : ∀ i : grid0.Coords, cfg0.idle 4 i = false := by
  intro i
  show (!(k0_cond2 i == 1#1) && !(k0_cond3 i == 1#1)) = false
  unfold k0_cond2 k0_cond3
  have h : (i 1).val < 8 := (i 1).isLt
  generalize (i 1).val = k at h
  have hk : k = 0 ∨ k = 1 ∨ k = 2 ∨ k = 3 ∨ k = 4 ∨ k = 5 ∨ k = 6 ∨ k = 7 := by omega
  rcases hk with rfl | rfl | rfl | rfl | rfl | rfl | rfl | rfl <;> decide

/-- Where a reduction continues the output tile's buffer holds what the point before left: the pipeline writes the tile
    back only after k = 7, and the next point opens a reduction. -/
theorem before4_cont (c : Dev nD) (t : Fin cfg0.N) (h8 : ¬t.val % 8 = 0) (d) :
    (dats m 0 c).before 4 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 4 rfl t (fun h => h8 (by rw [h])) (Bool.eq_false_iff.mpr fun h => by have := (flush0_4 _).mp h; dsimp only at this; omega)
    (live4_all) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; which of the three runs applies is decided by the
    point's number; the invariant hands the scratch over (at anything at the first point, at the projection later) and
    takes it back at the projection; the output tile's buffer ends at what `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · rw [outsAt_first m c t hz]
    unfold tileFirst projFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scM (Memref.isWhole_whole _) ((isFirst_iff t).mpr hz) ((isOpen_iff t).mpr (by rw [hz])) (fun h => (isCont_iff t).mp h (by rw [hz])) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverFirstProj c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirstTile c _ _ _ _ _ _ _ _ _ _ _ _ _ _ _ _ _ _ _ _)
  · by_cases h8 : t.val % 8 = 0
    · rw [outsAt_open m c t hz h8]
      unfold tileOpen; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runOpen c (grid0.coords t) (ms0 t) (hs0 t) (ms1 t) (hs1 t) (ms2 t) (hs2 t) (ms3 t) (hs3 t) (ms4 t) (hs4 t) scM (Memref.isWhole_whole _) (fun h => hz ((isFirst_iff t).mp h)) ((isOpen_iff t).mpr h8) (fun h => (isCont_iff t).mp h h8) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOpenTile c _ _ _ _ _ _ _ _ _ _ _ _ _ _ _ _ _ _ _ _ _)
    · rw [outsAt_cont m c t h8]
      unfold tileCont; (try dsimp only)
      simp only [before4_cont m c t h8]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runCont c (grid0.coords t) (ms0 t) (hs0 t) (ms1 t) (hs1 t) (ms2 t) (hs2 t) (ms3 t) (hs3 t) (ms4 t) (hs4 t) scM (Memref.isWhole_whole _) (fun h => h8 (by rw [(isFirst_iff t).mp h])) (fun h => h8 ((isOpen_iff t).mp h)) ((isCont_iff t).mpr h8) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverContTile c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, every array of the pipeline at what the library computes from
    the bookkeeping above and every other unscoped buffer as the transposition after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.ControlIdeal.lean ====
/-
  The control of the fused kernel over its 2 x 8 grid (point t = 8 i + k, row tile i, reduction tile k).
  Three conditions of the grid coordinates decide what a point does:
    * the projection h = x W^T + b is computed into the scratch only at the very first point (i = 0 and k = 0);
    * the output tile is overwritten by the point's partial product where k = 0;
    * the partial product is added to it where k > 0.
  Each is decided over the sixteen points; together they leave three kinds of points: the first point
  (projection, then overwrite), the points with k > 0 (accumulate), and point 8 (overwrite, no projection).
  The output window is never idle: every point stores into its tile.
-/
import proofs.«111286_g16793322127443_cont_week2b_1270_43_alg».proof.Proof.Gen.KernelIdeal.Frame
import proofs.«111286_g16793322127443_cont_week2b_1270_43_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "This is the first point of the grid" as the body computes it: (i = 0) and (k = 0), widened and compared with zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val = 0 :=
  (by decide +kernel : ∀ t : Fin grid0.N, isFirst (grid0.coords t) ↔ t.val = 0)

/-- "k = 0": the point opens a reduction, its partial product overwrites the output tile. -/
abbrev isOpen (i : grid0.Coords) : Prop := k0_cond2 i = 1#1
/-- It holds at the points that are multiples of 8. -/
theorem isOpen_iff : ∀ t : Fin cfg0.N, isOpen (grid0.coords t) ↔ t.val % 8 = 0 :=
  (by decide +kernel : ∀ t : Fin grid0.N, isOpen (grid0.coords t) ↔ t.val % 8 = 0)

/-- "k > 0": the point continues a reduction, its partial product is added to the output tile. -/
abbrev isCont (i : grid0.Coords) : Prop := k0_cond3 i = 1#1
/-- It holds at the other points. -/
theorem isCont_iff : ∀ t : Fin cfg0.N, isCont (grid0.coords t) ↔ t.val % 8 ≠ 0 :=
  (by decide +kernel : ∀ t : Fin grid0.N, isCont (grid0.coords t) ↔ t.val % 8 ≠ 0)

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Every point has k = 0 or k > 0, so every point stores into the output tile. -/
theorem live4 : ∀ t : Fin cfg0.N, cfg0.idle 4 (grid0.coords t) = false := by decide +kernel

/-! ## The memrefs the body is called with -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x2048 .f32 := win0_4.stage (cfg0.slots t 4)
abbrev hs4 (t : Fin cfg0.N) : (ms4 t).IsWhole := hstage0_4 ((cfg0.slots t 4).cast nbuf0_4)
/-- The scratch that holds the projection h, all 16384 x 32 of it. -/
abbrev scM : Memref sig .tc .vmem S16384x32 .bf16 := Memref.whole cc0_scratch0
/-- The view through which the scratch's contents are stated. -/
abbrev VS : View sig .tc .vmem S16384x32 .bf16 := (scM).view
/-- One staging buffer of the output window, through which an output tile's contents are stated. -/
abbrev VO : View sig .tc .vmem S32x2048 .f32 := (Memref.whole cc0_stg4_0 : Memref sig .tc .vmem S32x2048 .f32).view

/-- The region's class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.FirstIdeal.lean ====
/-
  The body at the FIRST point of the grid (i = 0, k = 0). Here, and only here, the projection h = x W^T + b is computed:
  for each of the four bond types t the 4096 x 32 block x · W[32 t .. 32 t + 31, :]^T + b[t] is stored into rows
  4096 t .. 4096 t + 4095 of the scratch, so that the four stores fill all 16384 rows. Then, as at every point that opens
  a reduction, rows 0 .. 2047 of the scratch are multiplied with the point's tile of the adjacency matrix and the
  product overwrites the output tile.
-/
import proofs.«111286_g16793322127443_cont_week2b_1270_43_alg».proof.Proof.ControlIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the output tile and in the scratch at the first point, with the proof that from
    whole memrefs — the four inputs at their contents, the output tile and the scratch at anything — the body runs to its
    end, the inputs as they were, the output tile and the scratch with those pieces written. -/
noncomputable def runFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : isFirst i) (ho : isOpen i) (hc : ¬isCont i)
    (x0 : Vec F S4096x128 .f32) (x1 : Vec F S128x128 .f32) (x2 : Vec F S4x1x32 .f32) (x3 : Vec F S2048x2048 .f32) :
    Σ' (L4 : List (View.Piece (Elt F) S32x2048 .f32)), { LS : List (View.Piece (Elt F) S16384x32 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Body

end
-- ==== Proof.OpenIdeal.lean ====
/-
  The body at a point that OPENS a reduction without being the first point of the grid (point 8: k = 0, i = 1).
  The projection is already in the scratch; the body reads its rows 0 .. 2047, multiplies them with the point's tile of
  the adjacency matrix and overwrites the output tile with the 32 x 2048 product, whatever the tile held.
-/
import proofs.«111286_g16793322127443_cont_week2b_1270_43_alg».proof.Proof.ControlIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile at such a point, with the proof that from whole memrefs — the
    four inputs at their contents, the output tile at anything, the scratch at the projection it carries (`xs`) — the
    body runs to its end, the inputs and the scratch as they were, the output tile with those pieces written. -/
noncomputable def runOpen (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) :
    { L4 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Body

end
-- ==== Proof.ContIdeal.lean ====
/-
  The body at a point that CONTINUES a reduction (k > 0; not the first point). It computes nothing into the scratch:
  it reads rows 2048 k .. 2048 k + 2047 of the projection there, multiplies them (contracting those rows) with the
  point's 2048 x 2048 tile of the adjacency matrix, and adds the 32 x 2048 product to what the output tile already holds.
  The run is symbolic in the memrefs and in what they hold; what it leaves in the output tile is found by the run.
-/
import proofs.«111286_g16793322127443_cont_week2b_1270_43_alg».proof.Proof.ControlIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile at a continuing point, with the proof that from whole
    memrefs — the four inputs at their contents, the output tile at what the point before left (`xo`), the scratch at the
    projection it carries (`xs`) — the body runs to its end, the inputs and the scratch as they were, the output tile
    with those pieces written. -/
noncomputable def runCont (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole)
    (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) :
    { L4 : List (View.Piece (Elt F) S32x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact ho | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Body

end
-- ==== Proof.PointsIdeal.lean ====
/-
  What the output tile and the scratch hold after every point of the grid, and the frame of the whole program from it.

  The scratch is written at the first point only and holds the projection from then on; the output tile is overwritten
  where a reduction opens (k = 0) and added to where it continues (k > 0), so after point t = 8 i + k it holds the sum of
  the partial products of reduction tiles 0 .. k of row tile i; the pipeline writes it back after k = 7.  Both are
  defined by recursion on the point from what the three runs of the body leave.  With the scratch's contents carried in
  the region's invariant and the output tile's in the pipeline's own bookkeeping, every point's run applies, which is
  the body obligation of the launch; the launch then gives the run of @main and the frame.
-/
import proofs.«111286_g16793322127443_cont_week2b_1270_43_alg».proof.Proof.FirstIdeal
import proofs.«111286_g16793322127443_cont_week2b_1270_43_alg».proof.Proof.OpenIdeal
import proofs.«111286_g16793322127443_cont_week2b_1270_43_alg».proof.Proof.ContIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves: its stores cover the buffer, so the contents are the stores read back -/

/-- The first point's one store into the output tile covers it. -/
theorem coverFirstTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) (y : S32x2048.Idx) : ∃ pc ∈ (runFirst c i arg2 harg2 arg3 harg3 arg4 harg4 arg5 harg5 arg6 harg6 arg7 harg7 hf ho hc x0 x1 x2 x3).1, y ∈ pc.1.set :=
  View.cover_of_tiledL (runFirst c i arg2 harg2 arg3 harg3 arg4 harg4 arg5 harg5 arg6 harg6 arg7 harg7 hf ho hc x0 x1 x2 x3).1 S32x2048.size (by sl_kernel_rfl) y

/-- The first point's four stores of 4096 rows each tile the 16384 rows of the scratch. -/
theorem coverFirstProj (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) (y : S16384x32.Idx) : ∃ pc ∈ (runFirst c i arg2 harg2 arg3 harg3 arg4 harg4 arg5 harg5 arg6 harg6 arg7 harg7 hf ho hc x0 x1 x2 x3).2.1, y ∈ pc.1.set :=
  View.cover_of_tiledL (runFirst c i arg2 harg2 arg3 harg3 arg4 harg4 arg5 harg5 arg6 harg6 arg7 harg7 hf ho hc x0 x1 x2 x3).2.1 S4096x32.size (by sl_kernel_rfl) y

/-- The output tile after the first point. -/
def tileFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) : Vec F S32x2048 .f32 :=
  VO.read (Elt F) (VO.writes (Elt F) VO.junk (runFirst c i arg2 harg2 arg3 harg3 arg4 harg4 arg5 harg5 arg6 harg6 arg7 harg7 hf ho hc x0 x1 x2 x3).1)

/-- The scratch after the first point: the projection. -/
def projFirst (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec F S4096x128 .f32) (x1 : Vec F S128x128 .f32) (x2 : Vec F S4x1x32 .f32) (x3 : Vec F S2048x2048 .f32) : Vec F S16384x32 .bf16 :=
  VS.read (Elt F) (VS.writes (Elt F) VS.junk (runFirst c i arg2 harg2 arg3 harg3 arg4 harg4 arg5 harg5 arg6 harg6 arg7 harg7 hf ho hc x0 x1 x2 x3).2.1)

/-- The one store at a point that opens a reduction covers the output tile. -/
theorem coverOpenTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) (y : S32x2048.Idx) : ∃ pc ∈ (runOpen c i arg2 harg2 arg3 harg3 arg4 harg4 arg5 harg5 arg6 harg6 arg7 harg7 hf ho hc x0 x1 x2 x3 xs).1, y ∈ pc.1.set :=
  View.cover_of_tiledL (runOpen c i arg2 harg2 arg3 harg3 arg4 harg4 arg5 harg5 arg6 harg6 arg7 harg7 hf ho hc x0 x1 x2 x3 xs).1 S32x2048.size (by sl_kernel_rfl) y

/-- The output tile after such a point. -/
def tileOpen (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : isOpen i) (hc : ¬isCont i)
    (x0 : Vec F S4096x128 .f32) (x1 : Vec F S128x128 .f32) (x2 : Vec F S4x1x32 .f32) (x3 : Vec F S2048x2048 .f32) (xs : Vec F S16384x32 .bf16) : Vec F S32x2048 .f32 :=
  VO.read (Elt F) (VO.writes (Elt F) VO.junk (runOpen c i arg2 harg2 arg3 harg3 arg4 harg4 arg5 harg5 arg6 harg6 arg7 harg7 hf ho hc x0 x1 x2 x3 xs).1)

/-- The one store at a point that continues a reduction covers the output tile. -/
theorem coverContTile (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) (y : S32x2048.Idx) :
    ∃ pc ∈ (runCont c i arg2 harg2 arg3 harg3 arg4 harg4 arg5 harg5 arg6 harg6 arg7 harg7 hf ho hc x0 x1 x2 x3 xo xs).1, y ∈ pc.1.set :=
  View.cover_of_tiledL (runCont c i arg2 harg2 arg3 harg3 arg4 harg4 arg5 harg5 arg6 harg6 arg7 harg7 hf ho hc x0 x1 x2 x3 xo xs).1 S32x2048.size (by sl_kernel_rfl) y

/-- The output tile after such a point. -/
def tileCont (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : ¬isOpen i) (hc : isCont i)
    (x0 : Vec F S4096x128 .f32) (x1 : Vec F S128x128 .f32) (x2 : Vec F S4x1x32 .f32) (x3 : Vec F S2048x2048 .f32) (xo : Vec F S32x2048 .f32) (xs : Vec F S16384x32 .bf16) : Vec F S32x2048 .f32 :=
  VO.read (Elt F) (VO.writes (Elt F) VO.junk (runCont c i arg2 harg2 arg3 harg3 arg4 harg4 arg5 harg5 arg6 harg6 arg7 harg7 hf ho hc x0 x1 x2 x3 xo xs).1)

/-! ## The output tile and the scratch after each point -/

/-- After point `n`: (the output tile, the scratch).  The first point computes both from the input blocks; a later point
    leaves the scratch as it found it and either overwrites the tile (n a multiple of 8) or adds to what point n - 1 left. -/
def outsAt (c : Dev nD) : (n : ℕ) → n < cfg0.N → Vec F S32x2048 .f32 × Vec F S16384x32 .bf16
  | 0, hn =>
    (tileFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _)
        ((isFirst_iff ⟨0, hn⟩).mpr rfl) ((isOpen_iff ⟨0, hn⟩).mpr (Nat.zero_mod _)) (fun h => (isCont_iff ⟨0, hn⟩).mp h (Nat.zero_mod _))
        (iblk m c 0 ⟨0, hn⟩) (iblk m c 1 ⟨0, hn⟩) (iblk m c 2 ⟨0, hn⟩) (iblk m c 3 ⟨0, hn⟩),
     projFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _)
        ((isFirst_iff ⟨0, hn⟩).mpr rfl) ((isOpen_iff ⟨0, hn⟩).mpr (Nat.zero_mod _)) (fun h => (isCont_iff ⟨0, hn⟩).mp h (Nat.zero_mod _))
        (iblk m c 0 ⟨0, hn⟩) (iblk m c 1 ⟨0, hn⟩) (iblk m c 2 ⟨0, hn⟩) (iblk m c 3 ⟨0, hn⟩))
  | n + 1, hn =>
    if h8 : (n + 1) % 8 = 0 then
      (tileOpen c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
          (fun h => absurd ((isFirst_iff ⟨n + 1, hn⟩).mp h) (Nat.succ_ne_zero n)) ((isOpen_iff ⟨n + 1, hn⟩).mpr h8) (fun h => (isCont_iff ⟨n + 1, hn⟩).mp h h8)
          (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       (outsAt c n (Nat.lt_of_succ_lt hn)).2)
    else
      (tileCont c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
          (fun h => absurd ((isFirst_iff ⟨n + 1, hn⟩).mp h) (Nat.succ_ne_zero n)) (fun h => h8 ((isOpen_iff ⟨n + 1, hn⟩).mp h)) ((isCont_iff ⟨n + 1, hn⟩).mpr h8)
          (iblk m c 0 ⟨n + 1, hn⟩) (iblk m c 1 ⟨n + 1, hn⟩) (iblk m c 2 ⟨n + 1, hn⟩) (iblk m c 3 ⟨n + 1, hn⟩) (outsAt c n (Nat.lt_of_succ_lt hn)).1 (outsAt c n (Nat.lt_of_succ_lt hn)).2,
       (outsAt c n (Nat.lt_of_succ_lt hn)).2)

/-- At the first point. -/
theorem outsAt_first (c : Dev nD) (t : Fin cfg0.N) (hz : t.val = 0) :
    outsAt m c t.val t.isLt =
      (tileFirst c (grid0.coords t) (ms0 t) (hs0 t) (ms1 t) (hs1 t) (ms2 t) (hs2 t) (ms3 t) (hs3 t) (ms4 t) (hs4 t) scM (Memref.isWhole_whole _)
          ((isFirst_iff t).mpr hz) ((isOpen_iff t).mpr (by rw [hz])) (fun h => (isCont_iff t).mp h (by rw [hz]))
          (iblk m c 0 t) (iblk m c 1 t) (iblk m c 2 t) (iblk m c 3 t),
       projFirst c (grid0.coords t) (ms0 t) (hs0 t) (ms1 t) (hs1 t) (ms2 t) (hs2 t) (ms3 t) (hs3 t) (ms4 t) (hs4 t) scM (Memref.isWhole_whole _)
          ((isFirst_iff t).mpr hz) ((isOpen_iff t).mpr (by rw [hz])) (fun h => (isCont_iff t).mp h (by rw [hz]))
          (iblk m c 0 t) (iblk m c 1 t) (iblk m c 2 t) (iblk m c 3 t)) := by
  obtain ⟨n, hn⟩ := t
  cases n with
  | zero => exact rfl
  | succ n => exact absurd hz (Nat.succ_ne_zero n)

/-- At a later point that opens a reduction. -/
theorem outsAt_open (c : Dev nD) (t : Fin cfg0.N) (hz : t.val ≠ 0) (h8 : t.val % 8 = 0) :
    outsAt m c t.val t.isLt =
      (tileOpen c (grid0.coords t) (ms0 t) (hs0 t) (ms1 t) (hs1 t) (ms2 t) (hs2 t) (ms3 t) (hs3 t) (ms4 t) (hs4 t) scM (Memref.isWhole_whole _)
          (fun h => hz ((isFirst_iff t).mp h)) ((isOpen_iff t).mpr h8) (fun h => (isCont_iff t).mp h h8)
          (iblk m c 0 t) (iblk m c 1 t) (iblk m c 2 t) (iblk m c 3 t) (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl hz
  | succ n => exact (dif_pos h8).trans rfl

/-- At a point that continues a reduction. -/
theorem outsAt_cont (c : Dev nD) (t : Fin cfg0.N) (h8 : ¬t.val % 8 = 0) :
    outsAt m c t.val t.isLt =
      (tileCont c (grid0.coords t) (ms0 t) (hs0 t) (ms1 t) (hs1 t) (ms2 t) (hs2 t) (ms3 t) (hs3 t) (ms4 t) (hs4 t) scM (Memref.isWhole_whole _)
          (fun h => h8 (by rw [(isFirst_iff t).mp h])) (fun h => h8 ((isOpen_iff t).mp h)) ((isCont_iff t).mpr h8)
          (iblk m c 0 t) (iblk m c 1 t) (iblk m c 2 t) (iblk m c 3 t) (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd (Nat.zero_mod 8) h8
  | succ n => exact (dif_neg h8).trans rfl

/-! ## The region's invariant: the scratch at the projection once it is computed -/

/-- Before point `n`: before the first point the scratch holds anything; afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's bookkeeping -/

/-- On core `c`: the arrays as the region finds them; after the body each input's buffer at its block and the output's at
    the tile `outsAt` names; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Whatever the grid coordinates, one of k = 0 and k > 0 holds: the output window is idle nowhere. -/
theorem live4_all : ∀ i : grid0.Coords, cfg0.idle 4 i = false := by
  intro i
  show (!(k0_cond2 i == 1#1) && !(k0_cond3 i == 1#1)) = false
  unfold k0_cond2 k0_cond3
  have h : (i 1).val < 8 := (i 1).isLt
  generalize (i 1).val = k at h
  have hk : k = 0 ∨ k = 1 ∨ k = 2 ∨ k = 3 ∨ k = 4 ∨ k = 5 ∨ k = 6 ∨ k = 7 := by omega
  rcases hk with rfl | rfl | rfl | rfl | rfl | rfl | rfl | rfl <;> decide

/-- Where a reduction continues the output tile's buffer holds what the point before left: the pipeline writes the tile
    back only after k = 7, and the next point opens a reduction. -/
theorem before4_cont (c : Dev nD) (t : Fin cfg0.N) (h8 : ¬t.val % 8 = 0) (d) :
    (dats m 0 c).before 4 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 4 rfl t (fun h => h8 (by rw [h])) (Bool.eq_false_iff.mpr fun h => by have := (flush0_4 _).mp h; dsimp only at this; omega)
    (live4_all) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; which of the three runs applies is decided by the
    point's number; the invariant hands the scratch over (at anything at the first point, at the projection later) and
    takes it back at the projection; the output tile's buffer ends at what `outsAt` names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · rw [outsAt_first m c t hz]
    unfold tileFirst projFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) scM (Memref.isWhole_whole _) ((isFirst_iff t).mpr hz) ((isOpen_iff t).mpr (by rw [hz])) (fun h => (isCont_iff t).mp h (by rw [hz])) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverFirstProj c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirstTile c _ _ _ _ _ _ _ _ _ _ _ _ _ _ _ _ _ _ _ _)
  · by_cases h8 : t.val % 8 = 0
    · rw [outsAt_open m c t hz h8]
      unfold tileOpen; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runOpen c (grid0.coords t) (ms0 t) (hs0 t) (ms1 t) (hs1 t) (ms2 t) (hs2 t) (ms3 t) (hs3 t) (ms4 t) (hs4 t) scM (Memref.isWhole_whole _) (fun h => hz ((isFirst_iff t).mp h)) ((isOpen_iff t).mpr h8) (fun h => (isCont_iff t).mp h h8) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOpenTile c _ _ _ _ _ _ _ _ _ _ _ _ _ _ _ _ _ _ _ _ _)
    · rw [outsAt_cont m c t h8]
      unfold tileCont; (try dsimp only)
      simp only [before4_cont m c t h8]
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runCont c (grid0.coords t) (ms0 t) (hs0 t) (ms1 t) (hs1 t) (ms2 t) (hs2 t) (ms3 t) (hs3 t) (ms4 t) (hs4 t) scM (Memref.isWhole_whole _) (fun h => h8 (by rw [(isFirst_iff t).mp h])) (fun h => h8 ((isOpen_iff t).mp h)) ((isCont_iff t).mpr h8) (iblk m c 0 t) (iblk m c 1 t) (iblk m c 2 t) (iblk m c 3 t) _ _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverContTile c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, every array of the pipeline at what the library computes from
    the bookkeeping above and every other unscoped buffer as the transposition after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibTiledSum.lean ====
/-
  A sum over `N · T` consecutive positions taken tile by tile, and a sum over two runs of tiles joined.

  The positions `0 … N·T − 1` are the pairs (tile `n < N`, offset `r < T`) at `T · n + r`; a sum over all
  positions is the sum over the tiles of each tile's sum, in any commutative monoid.
-/
import Mathlib.Algebra.BigOperators.Fin
import Mathlib.Algebra.BigOperators.Intervals
import Mathlib.Logic.Equiv.Fin.Basic

namespace Cert.TiledSum

open scoped BigOperators

variable {M : Type*} [AddCommMonoid M]

/-- Position `T · n + r` of tile `n`, offset `r`. -/
def pos {N T : Nat} (n : Fin N) (r : Fin T) : Fin (N * T) := finProdFinEquiv (n, r)

theorem pos_val {N T : Nat} (n : Fin N) (r : Fin T) : (pos n r).val = r.val + T * n.val := rfl

/-- `∑ ε, f ε = ∑ n, ∑ r, f (T·n + r)`. -/
theorem sum_tiles {N T : Nat} (f : Fin (N * T) → M) : ∑ ε : Fin (N * T), f ε = ∑ n : Fin N, ∑ r : Fin T, f (pos n r) := by
  rw [← Equiv.sum_comp finProdFinEquiv f, Fintype.sum_prod_type]
  rfl

/-- A sum over the tiles `0 … A + B − 1` written with naturals below the count: the first `A` tiles, then the next `B`. -/
theorem sum_fin_split (A B : Nat) (F : Nat → M) :
    ∑ n : Fin (A + B), F n.val = (∑ s ∈ Finset.range A, F s) + (∑ s ∈ Finset.range B, F (A + s)) := by
  rw [Fin.sum_univ_eq_sum_range (fun n => F n) (A + B), Finset.sum_range_add]

end Cert.TiledSum
-- ==== Proof.Spec.lean ====
/-
  What both programs compute, as one function of the four argument arrays over the extended reals.

  x : 4096 x 128 atom features, A : 4096 x 16384 adjacency (four bond types side by side), W : 128 x 128, b : 128.
  The projection h = x W^T + b has 128 = 4 · 32 columns; bond type t owns columns 32 t .. 32 t + 31.  Stacking the four
  column groups on top of each other gives the 16384 x 32 array

      proj (4096 t + a, o) = (Σ_f x (a, f) · W (32 t + o, f)) + b (32 t + o),

  and the result is the 4096 x 32 product  out (n, o) = Σ_j A (n, j) · proj (j, o).

  The kernel takes the sum over j in eight tiles of 2048 and multiplies the other way round; both are the same
  extended real because sums and products of extended reals are commutative and associative (no distributivity,
  no cancelling: nothing here needs the inputs finite).
-/
import Idealize.ShloMosaic.PureOps.Ideal
import Idealize.ShloMosaic.Lib.ValueIdx
import proofs.«111286_g16793322127443_cont_week2b_1270_43_alg».proof.Proof.LibTiledSum

noncomputable section

namespace Cert.MolConv

open Idealize.ShloMosaic Idealize.ShloMosaic.ValueIdx
open scoped BigOperators

/-- The bond type that owns stacked row `j`. -/
def btype (j : Fin 16384) : Fin 4 := ⟨j.val / 4096, by have := j.isLt; omega⟩
/-- The atom of stacked row `j`. -/
def atom (j : Fin 16384) : Fin 4096 := ⟨j.val % 4096, Nat.mod_lt _ (by decide)⟩
/-- The projection's column that stacked row `j` reads for output feature `o`. -/
def chan (j : Fin 16384) (o : Fin 32) : Fin 128 := ⟨32 * (j.val / 4096) + o.val, by have := j.isLt; have := o.isLt; omega⟩

/-- The stacked projection. -/
def proj (x : FVec Ideal ⟨2, ![4096, 128]⟩ .f32) (W : FVec Ideal ⟨2, ![128, 128]⟩ .f32) (b : FVec Ideal ⟨1, ![128]⟩ .f32)
    (j : Fin 16384) (o : Fin 32) : EReal :=
  (∑ f : Fin 128, x (ix2 (atom j) f) * W (ix2 (chan j o) f)) + b (ix1 (chan j o))

/-- The result at row `n`, feature `o`. -/
def out (x : FVec Ideal ⟨2, ![4096, 128]⟩ .f32) (A : FVec Ideal ⟨2, ![4096, 16384]⟩ .f32) (W : FVec Ideal ⟨2, ![128, 128]⟩ .f32)
    (b : FVec Ideal ⟨1, ![128]⟩ .f32) (n : Fin 4096) (o : Fin 32) : EReal :=
  ∑ j : Fin 16384, A (ix2 n j) * proj x W b j o

/-- Column `2048 k + c` of the adjacency matrix: reduction tile `k`, offset `c`. -/
def col (k : ℕ) (hk : k < 8) (c : Fin 2048) : Fin 16384 := ⟨2048 * k + c.val, by have := c.isLt; omega⟩

/-- One reduction tile's share of the result, the way the kernel multiplies (projection first). -/
def term (H : Fin 16384 → Fin 32 → EReal) (A : FVec Ideal ⟨2, ![4096, 16384]⟩ .f32) (n : Fin 4096) (o : Fin 32)
    (k : ℕ) (hk : k < 8) : EReal :=
  ∑ c : Fin 2048, H (col k hk c) o * A (ix2 n (col k hk c))

/-- The running sum over reduction tiles `0 .. k`, in the kernel's order. -/
def running (H : Fin 16384 → Fin 32 → EReal) (A : FVec Ideal ⟨2, ![4096, 16384]⟩ .f32) (n : Fin 4096) (o : Fin 32) :
    (k : ℕ) → k < 8 → EReal
  | 0, h => term H A n o 0 h
  | k + 1, h => running H A n o k (Nat.lt_of_succ_lt h) + term H A n o (k + 1) h

/-- After the eighth tile the running sum is the whole sum over the 16384 columns, each product commuted. -/
theorem running_last (H : Fin 16384 → Fin 32 → EReal) (A : FVec Ideal ⟨2, ![4096, 16384]⟩ .f32) (n : Fin 4096) (o : Fin 32) :
    running H A n o 7 (by decide) = ∑ j : Fin 16384, A (ix2 n j) * H j o := by
  have e : (∑ j : Fin 16384, A (ix2 n j) * H j o) = ∑ k : Fin 8, ∑ c : Fin 2048, H (col k.val k.isLt c) o * A (ix2 n (col k.val k.isLt c)) := by
    rw [show (∑ j : Fin 16384, A (ix2 n j) * H j o) = ∑ j : Fin (8 * 2048), A (ix2 n j) * H j o from rfl, Cert.TiledSum.sum_tiles]
    refine Finset.sum_congr rfl fun k _ => Finset.sum_congr rfl fun c _ => ?_
    have hp : (Cert.TiledSum.pos k c : Fin (8 * 2048)) = col k.val k.isLt c := Fin.ext (by rw [Cert.TiledSum.pos_val]; show _ = 2048 * k.val + c.val; omega)
    rw [hp, mul_comm]
  rw [e, Fin.sum_univ_eight]
  simp only [running, term]
  rfl

end Cert.MolConv

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.LibMatmulFirstLast.lean ====
/-
  A matrix product that contracts the FIRST axis of its left operand with the LAST axis of its right operand
  (`l.T @ r.T`: a `K × M` left operand, an `N × K` right operand, an `M × N` result, dimension numbers
  `<[0], [1], [1], [0], [0, 1, 1, 0], [], []>`), read at one entry over the extended reals.

  Whatever record of dimension numbers carries those six lists, the left operand is read at row `k` of the
  contraction and column `p` (the result's row), the right operand at row `q` (the result's column) and column
  `k`; the contraction index is one coordinate, so the sum over it is a sum over `Fin K`. Into a zero accumulator
  the product's entry `(p, q)` is therefore `∑ k, l (k, p) · r (q, k)`; into any accumulator it is the
  accumulator's entry plus that sum.
-/
import Idealize.ShloMosaic.PureOps.Ideal
import Idealize.ShloMosaic.PureOps.Ideal.Laws
import Idealize.ShloMosaic.Lib.ValueIdx

noncomputable section

namespace Cert.MatmulFirstLast

open Idealize.ShloMosaic Idealize.ShloMosaic.ValueIdx
open scoped BigOperators

variable {M N K : Nat}

/-- The six lists of dimension numbers of `l.T @ r.T`. -/
structure IsFirstLast (D : DotDims ⟨2, ![K, M]⟩ ⟨2, ![N, K]⟩ ⟨2, ![M, N]⟩) : Prop where
  lc : D.lhsContracting = [0]
  rc : D.rhsContracting = [1]
  ln : D.lhsNonContracting = [1]
  rn : D.rhsNonContracting = [0]
  lb : D.lhsBatch = []
  rb : D.rhsBatch = []

variable {D : DotDims ⟨2, ![K, M]⟩ ⟨2, ![N, K]⟩ ⟨2, ![M, N]⟩}

theorem IsFirstLast.rank_contr (h : IsFirstLast D) : D.contr.rank = 1 := by
  rw [D.rank_contr, h.lc]; rfl

theorem IsFirstLast.size_contr (h : IsFirstLast D) : D.contr.size ⟨0, by rw [h.rank_contr]; exact Nat.one_pos⟩ = K := by
  have e := D.size_contr 0 (by rw [h.lc]; exact Nat.one_pos)
  rw [e]
  simp only [h.lc]
  rfl

/-- The left operand's column is the result's row. -/
theorem IsFirstLast.lhs_col (h : IsFirstLast D) (j : (⟨2, ![M, N]⟩ : Shape).Idx) (k : D.contr.Idx) :
    (D.lhsIdx j k 1).val = (j 0).val := by
  have hb : (1 : Fin (⟨2, ![K, M]⟩ : Shape).rank) ∉ D.lhsBatch := by rw [h.lb]; exact List.not_mem_nil
  have hn : (1 : Fin (⟨2, ![K, M]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsFirstLast.rhs_row (h : IsFirstLast D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsFirstLast.contrEquiv (h : IsFirstLast D) : D.contr.Idx ≃ Fin K :=
  contrEquiv1 D K h.rank_contr h.size_contr

/-- The two operands' indices at result entry `(p, q)` and contraction coordinate `k`. -/
theorem IsFirstLast.lhsIdx_eq (h : IsFirstLast D) (p : Fin M) (q : Fin N) (k : Fin K) :
    D.lhsIdx (ix2 p q) (h.contrEquiv.symm k) = ix2 k p := by
  funext a
  apply Fin.ext
  match a with
  | ⟨0, _⟩ =>
    show (D.lhsIdx (ix2 p q) (h.contrEquiv.symm k) 0).val = k.val
    rw [D.lhsIdx_val_of_single h.lc]
    exact contrEquiv1_symm_val D K h.rank_contr h.size_contr k
  | ⟨1, _⟩ => exact h.lhs_col (ix2 p q) _

theorem IsFirstLast.rhsIdx_eq (h : IsFirstLast D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the contracted
    axis of the operands' products. -/
theorem matmul_apply (h : IsFirstLast D) {φ₁ φ₂ : FTy} (prec : Option ContractPrecision)
    (l : FVec Ideal ⟨2, ![K, M]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 k p) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsFirstLast D) {φ₁ φ₂ : FTy} (prec : Option ContractPrecision)
    (l : FVec Ideal ⟨2, ![K, M]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 k p) * r (ix2 q k) := by
  rw [matmul_apply h]
  show Ideal.ofBits .f32 0x00000000#32 + _ = _
  rw [Ideal.ofBits_zero_f32, zero_add]

end Cert.MatmulFirstLast

end
-- ==== Proof.Pieces.lean ====
/-
  What the three runs of the body leave, read over the extended reals.

  The four 4096 x 32 blocks the first point stores into the scratch are the four row groups of ONE function of the
  scratch's index, the stacked projection: block t at (a, o) is Σ_f x (a, f) · W (32 t + o, f) + b (t, 0, o), and
  stacked row 4096 t + a has atom a and bond type t.  So the scratch after the first point is the stacked projection,
  whatever it held before.
  Every point then takes 2048 rows of the scratch, starting at the row the point's reduction tile names, and multiplies
  them with the point's 2048 x 2048 tile of the adjacency matrix, contracting those rows with the tile's columns:
  entry (o, r) of the product is Σ_c scratch (row₀ + c, o) · tile (r, c).  A point that opens a reduction leaves that
  product in the output tile; a point that continues one leaves the tile's previous contents plus the product.
  A change of float format is the identity here, so the roundings to bf16 disappear.
-/
import proofs.«111286_g16793322127443_cont_week2b_1270_43_alg».proof.Proof.PointsIdeal
import proofs.«111286_g16793322127443_cont_week2b_1270_43_alg».proof.Proof.Spec
import proofs.«111286_g16793322127443_cont_week2b_1270_43_alg».proof.Proof.LibMatmulLastAxis
import proofs.«111286_g16793322127443_cont_week2b_1270_43_alg».proof.Proof.LibMatmulFirstLast
import Idealize.ShloMosaic.Lib.Pipeline.Value
import Idealize.ShloMosaic.Lib.ValueIdx
import Idealize.ShloMosaic.PureOps.Ideal.Laws

set_option maxRecDepth 16384

noncomputable section

namespace Cert.KernelIdeal.Meaning

open Cert.KernelIdeal Cert.KernelIdeal.Gen Cert.KernelIdeal.Body Cert.MolConv
open Idealize.ShloMosaic Idealize.ShloMosaic.TcCoe Idealize.ShloMosaic.Tactic Idealize.ShloMosaic.ValueIdx
open Idealize.SL Idealize.SL.Sem
open Idealize.ShloMosaic.Pipeline (Dat)
open scoped BigOperators

theorem hz2 : (![0, 0] : Fin 2 → Nat) = fun _ => 0 := funext fun a => by fin_cases a <;> rfl

/-- The projection's product contracts the last axis of both operands; -/
theorem isLast : MatmulLastAxis.IsLastAxis dot_S4096x128_S32x128_S4096x32_1_1_0_0_n_n := ⟨rfl, rfl, rfl, rfl, rfl, rfl⟩
/-- the aggregation's contracts the rows of the projection with the columns of the adjacency tile. -/
theorem isFirstLast : Cert.MatmulFirstLast.IsFirstLast dot_S2048x32_S2048x2048_S32x2048_0_1_1_0_n_n := ⟨rfl, rfl, rfl, rfl, rfl, rfl⟩

/-! ## One block of the projection -/

/-- x times the transpose of 32 rows of W, taken from row 32 t on. -/
theorem rows_product (X : FVec Ideal S4096x128 .bf16) (Wt : FVec Ideal S128x128 .bf16) (off : Fin 2 → ℕ) (hsl : S128x128.Slices off S32x128)
    (t : ℕ) (h0 : off 0 = 32 * t) (h1 : off 1 = 0) (a : Fin 4096) (o : Fin 32) (ho : 32 * t + o.val < 128) :
    matmul dot_S4096x128_S32x128_S4096x32_1_1_0_0_n_n none X (extractStridedSlice S32x128 off Wt hsl) (constant S4096x32 .f32 0x00000000#32) (ix2 a o)
      = ∑ f : Fin 128, X (ix2 a f) * Wt (ix2 ⟨32 * t + o.val, ho⟩ f) := by
  refine (MatmulLastAxis.matmul_zero_apply isLast none X _ a o).trans ?_
  refine Finset.sum_congr rfl fun f _ => ?_
  congr 1
  exact extractStridedSlice_apply off Wt hsl (ix2 o f) (ix2 ⟨32 * t + o.val, ho⟩ f) (fun b => by
    match b with
    | ⟨0, _⟩ => show 32 * t + o.val = off 0 + o.val; omega
    | ⟨1, _⟩ => show f.val = off 1 + f.val; omega)

/-- One bond type's bias row, spread over the 4096 atoms. -/
theorem bias_row (v : FVec Ideal S1x1x32 .f32) (a : Fin 4096) (o : Fin 32) :
    broadcastTo S4096x32 (shapeCast S1x32 v shapeCasts_S1x1x32_S1x32) broadcasts_S1x32_S4096x32 (ix2 a o) = v (ix3 0 0 o) := by
  refine (broadcastTo_apply _ broadcasts_S1x32_S4096x32 (ix2 a o) (ix2 0 o) (fun b => by
    match b with
    | ⟨0, _⟩ => show 0 = if (1 : ℕ) = 1 then 0 else _; rw [if_pos rfl]
    | ⟨1, _⟩ => show o.val = if (32 : ℕ) = 1 then 0 else o.val; rw [if_neg (by decide)])).trans ?_
  refine (shapeCast_dropUnit_apply ![1, 32] v shapeCasts_S1x1x32_S1x32 (ix2 0 o)).trans ?_
  exact congrArg v (funext fun b => by match b with | ⟨0, _⟩ => rfl | ⟨1, _⟩ => rfl | ⟨2, _⟩ => rfl)

theorem block0_apply (x0 : Vec Ideal S4096x128 .f32) (x1 : Vec Ideal S128x128 .f32) (v : Vec Ideal S1x1x32 .f32) (a : Fin 4096) (o : Fin 32) :
    k0_pay6 (F := Ideal) x0 x1 v (ix2 a o) = (∑ f : Fin 128, x0 (ix2 a f) * x1 (ix2 ⟨32 * 0 + o.val, by have := o.isLt; omega⟩ f)) + v (ix3 0 0 o) := by
  unfold k0_pay6 k0_pay5 k0_pay4
  dsimp only
  rw [shapeCast_self]
  exact congrArg₂ (· + ·) (rows_product _ _ _ _ 0 rfl rfl a o _) (bias_row v a o)

theorem block1_apply (x0 : Vec Ideal S4096x128 .f32) (x1 : Vec Ideal S128x128 .f32) (v : Vec Ideal S1x1x32 .f32) (a : Fin 4096) (o : Fin 32) :
    k0_pay7 (F := Ideal) x0 x1 v (ix2 a o) = (∑ f : Fin 128, x0 (ix2 a f) * x1 (ix2 ⟨32 * 1 + o.val, by have := o.isLt; omega⟩ f)) + v (ix3 0 0 o) := by
  unfold k0_pay7 k0_pay5 k0_pay4
  dsimp only
  rw [shapeCast_self]
  exact congrArg₂ (· + ·) (rows_product _ _ _ _ 1 rfl rfl a o _) (bias_row v a o)

theorem block2_apply (x0 : Vec Ideal S4096x128 .f32) (x1 : Vec Ideal S128x128 .f32) (v : Vec Ideal S1x1x32 .f32) (a : Fin 4096) (o : Fin 32) :
    k0_pay8 (F := Ideal) x0 x1 v (ix2 a o) = (∑ f : Fin 128, x0 (ix2 a f) * x1 (ix2 ⟨32 * 2 + o.val, by have := o.isLt; omega⟩ f)) + v (ix3 0 0 o) := by
  unfold k0_pay8 k0_pay5 k0_pay4
  dsimp only
  rw [shapeCast_self]
  exact congrArg₂ (· + ·) (rows_product _ _ _ _ 2 rfl rfl a o _) (bias_row v a o)

theorem block3_apply (x0 : Vec Ideal S4096x128 .f32) (x1 : Vec Ideal S128x128 .f32) (v : Vec Ideal S1x1x32 .f32) (a : Fin 4096) (o : Fin 32) :
    k0_pay1 (F := Ideal) (k0_pay4 x0) (k0_pay9 x1) v (ix2 a o) = (∑ f : Fin 128, x0 (ix2 a f) * x1 (ix2 ⟨32 * 3 + o.val, by have := o.isLt; omega⟩ f)) + v (ix3 0 0 o) := by
  unfold k0_pay1 k0_pay9 k0_pay5 k0_pay4
  dsimp only
  rw [shapeCast_self]
  exact congrArg₂ (· + ·) (rows_product _ _ _ _ 3 rfl rfl a o _) (bias_row v a o)

/-! ## The scratch after the first point -/

/-- The stacked projection of the body's three small inputs, as contents of the scratch. -/
def projOf (x0 : Vec Ideal S4096x128 .f32) (x1 : Vec Ideal S128x128 .f32) (x2 : Vec Ideal S4x1x32 .f32) : Vec Ideal S16384x32 .bf16 :=
  fun y => (∑ f : Fin 128, x0 (ix2 (atom (y 0)) f) * x1 (ix2 (chan (y 0) (y 1)) f)) + x2 (ix3 (btype (y 0)) 0 (y 1))

/-- Block `t` at (a, o) is the stacked projection at stacked row 4096 t + a. -/
theorem block_agrees (x0 : Vec Ideal S4096x128 .f32) (x1 : Vec Ideal S128x128 .f32) (x2 : Vec Ideal S4x1x32 .f32)
    (t : ℕ) (ht : t < 4) (a : Fin 4096) (o : Fin 32) (ho : 32 * t + o.val < 128) (y : S16384x32.Idx)
    (hy0 : (y 0).val = 4096 * t + a.val) (hy1 : (y 1).val = o.val)
    (z : S4x1x32.Idx) (hz0 : (z 0).val = t) (hz1 : (z 1).val = 0) (hz2 : (z 2).val = o.val) :
    (∑ f : Fin 128, x0 (ix2 a f) * x1 (ix2 ⟨32 * t + o.val, ho⟩ f)) + x2 z = projOf x0 x1 x2 y := by
  have ha := a.isLt
  unfold projOf
  have ea : atom (y 0) = a := Fin.ext (by show (y 0).val % 4096 = a.val; rw [hy0]; omega)
  have ec : chan (y 0) (y 1) = ⟨32 * t + o.val, ho⟩ := Fin.ext (by show 32 * ((y 0).val / 4096) + (y 1).val = 32 * t + o.val; rw [hy0, hy1]; omega)
  have ez : ix3 (btype (y 0)) 0 (y 1) = z := funext fun b => Fin.ext (by
    match b with
    | ⟨0, _⟩ => show (y 0).val / 4096 = (z 0).val; rw [hy0, hz0]; omega
    | ⟨1, _⟩ => show 0 = (z 1).val; rw [hz1]
    | ⟨2, _⟩ => show (y 1).val = (z 2).val; rw [hy1, hz2])
  rw [ea, ec]
  exact congrArg (fun w => (∑ f : Fin 128, x0 (ix2 a f) * x1 (ix2 ⟨32 * t + o.val, ho⟩ f)) + x2 w) ez.symm

/-- What the first point's four stores leave is the stacked projection, at every index. -/
theorem canonFirst_eq (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec Ideal S4096x128 .f32) (x1 : Vec Ideal S128x128 .f32) (x2 : Vec Ideal S4x1x32 .f32) (x3 : Vec Ideal S2048x2048 .f32) :
    View.canon (runFirst c i arg2 harg2 arg3 harg3 arg4 harg4 arg5 harg5 arg6 harg6 arg7 harg7 hf ho hc x0 x1 x2 x3).2.1 = projOf x0 x1 x2 := by
  funext y
  refine View.canon_apply_of_pieces (projOf x0 x1 x2) _ ?_ y (coverFirstProj c i arg2 harg2 arg3 harg3 arg4 harg4 arg5 harg5 arg6 harg6 arg7 harg7 hf ho hc x0 x1 x2 x3 y)
  unfold runFirst
  dsimp only
  sl_unfold_words
  intro p hp x
  simp only [List.mem_cons, List.mem_nil_iff, or_false] at hp
  rcases hp with rfl | rfl | rfl | rfl
  · obtain ⟨a, o, rfl⟩ : ∃ (a : Fin 4096) (o : Fin 32), x = ix2 a o := ⟨x 0, x 1, eq_ix2 x⟩
    simp only [View.readAt_eq_ld, harg2.read_unread, harg3.read_unread, harg4.read_unread, View.ld_unit_zero (S := S4096x128) hz2, View.ld_unit_zero (S := S128x128) hz2]
    rw [block3_apply]
    exact block_agrees x0 x1 x2 3 (by decide) a o _ _ (by rw [Rect.emb_apply]; show 12288 + 1 * a.val = 4096 * 3 + a.val; omega)
      (by rw [Rect.emb_apply]; show 0 + 1 * o.val = o.val; omega) _ rfl rfl (by show 0 + 1 * o.val = o.val; omega)
  · obtain ⟨a, o, rfl⟩ : ∃ (a : Fin 4096) (o : Fin 32), x = ix2 a o := ⟨x 0, x 1, eq_ix2 x⟩
    simp only [View.readAt_eq_ld, harg2.read_unread, harg3.read_unread, harg4.read_unread, View.ld_unit_zero (S := S4096x128) hz2, View.ld_unit_zero (S := S128x128) hz2]
    rw [block2_apply]
    exact block_agrees x0 x1 x2 2 (by decide) a o _ _ (by rw [Rect.emb_apply]; show 8192 + 1 * a.val = 4096 * 2 + a.val; omega)
      (by rw [Rect.emb_apply]; show 0 + 1 * o.val = o.val; omega) _ rfl rfl (by show 0 + 1 * o.val = o.val; omega)
  · obtain ⟨a, o, rfl⟩ : ∃ (a : Fin 4096) (o : Fin 32), x = ix2 a o := ⟨x 0, x 1, eq_ix2 x⟩
    simp only [View.readAt_eq_ld, harg2.read_unread, harg3.read_unread, harg4.read_unread, View.ld_unit_zero (S := S4096x128) hz2, View.ld_unit_zero (S := S128x128) hz2]
    rw [block1_apply]
    exact block_agrees x0 x1 x2 1 (by decide) a o _ _ (by rw [Rect.emb_apply]; show 4096 + 1 * a.val = 4096 * 1 + a.val; omega)
      (by rw [Rect.emb_apply]; show 0 + 1 * o.val = o.val; omega) _ rfl rfl (by show 0 + 1 * o.val = o.val; omega)
  · obtain ⟨a, o, rfl⟩ : ∃ (a : Fin 4096) (o : Fin 32), x = ix2 a o := ⟨x 0, x 1, eq_ix2 x⟩
    simp only [View.readAt_eq_ld, harg2.read_unread, harg3.read_unread, harg4.read_unread, View.ld_unit_zero (S := S4096x128) hz2, View.ld_unit_zero (S := S128x128) hz2]
    rw [block0_apply]
    exact block_agrees x0 x1 x2 0 (by decide) a o _ _ (by rw [Rect.emb_apply]; show 0 + 1 * a.val = 4096 * 0 + a.val; omega)
      (by rw [Rect.emb_apply]; show 0 + 1 * o.val = o.val; omega) _ rfl rfl (by show 0 + 1 * o.val = o.val; omega)

/-- The scratch after the first point. -/
theorem projFirst_eq (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec Ideal S4096x128 .f32) (x1 : Vec Ideal S128x128 .f32) (x2 : Vec Ideal S4x1x32 .f32) (x3 : Vec Ideal S2048x2048 .f32) :
    projFirst c i arg2 harg2 arg3 harg3 arg4 harg4 arg5 harg5 arg6 harg6 arg7 harg7 hf ho hc x0 x1 x2 x3 = projOf x0 x1 x2 := by
  unfold projFirst
  rw [View.read_writes_eq_canon _ _ _ (coverFirstProj c i arg2 harg2 arg3 harg3 arg4 harg4 arg5 harg5 arg6 harg6 arg7 harg7 hf ho hc x0 x1 x2 x3)]
  exact canonFirst_eq c i arg2 harg2 arg3 harg3 arg4 harg4 arg5 harg5 arg6 harg6 arg7 harg7 hf ho hc x0 x1 x2 x3

/-! ## The output tile after each kind of point -/

/-- After the first point: the product of the projection's rows with the adjacency tile. -/
theorem tileFirst_apply (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : isFirst i) (ho : isOpen i) (hc : ¬isCont i)
    (x0 : Vec Ideal S4096x128 .f32) (x1 : Vec Ideal S128x128 .f32) (x2 : Vec Ideal S4x1x32 .f32) (x3 : Vec Ideal S2048x2048 .f32)
    (o : Fin 32) (r : Fin 2048) :
    tileFirst c i arg2 harg2 arg3 harg3 arg4 harg4 arg5 harg5 arg6 harg6 arg7 harg7 hf ho hc x0 x1 x2 x3 (ix2 o r)
      = ∑ k : Fin 2048, projOf x0 x1 x2 ((Rect.unit (s := S16384x32) (k0_off1 i) S2048x32.size (k0_off1_inb i)).idx (ix2 k o)) * x3 (ix2 r k) := by
  rw [← canonFirst_eq c i arg2 harg2 arg3 harg3 arg4 harg4 arg5 harg5 arg6 harg6 arg7 harg7 hf ho hc x0 x1 x2 x3]
  unfold tileFirst
  rw [View.read_writes_eq_canon _ _ _ (coverFirstTile c i arg2 harg2 arg3 harg3 arg4 harg4 arg5 harg5 arg6 harg6 arg7 harg7 hf ho hc x0 x1 x2 x3)]
  unfold runFirst
  dsimp only
  sl_unfold_words
  rw [View.canon_unit_zero hz2]
  unfold k0_pay2
  simp only [View.readAt_eq_ld, harg5.read_unread, View.ld_unit_zero (S := S2048x2048) hz2, View.read_writes_junk_eq_canon]
  exact MatmulFirstLast.matmul_zero_apply isFirstLast none _ _ o r

/-- After a later point that opens a reduction: the same product, of the scratch's contents. -/
theorem tileOpen_apply (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : isOpen i) (hc : ¬isCont i)
    (x0 : Vec Ideal S4096x128 .f32) (x1 : Vec Ideal S128x128 .f32) (x2 : Vec Ideal S4x1x32 .f32) (x3 : Vec Ideal S2048x2048 .f32)
    (xs : Vec Ideal S16384x32 .bf16) (o : Fin 32) (r : Fin 2048) :
    tileOpen c i arg2 harg2 arg3 harg3 arg4 harg4 arg5 harg5 arg6 harg6 arg7 harg7 hf ho hc x0 x1 x2 x3 xs (ix2 o r)
      = ∑ k : Fin 2048, xs ((Rect.unit (s := S16384x32) (k0_off1 i) S2048x32.size (k0_off1_inb i)).idx (ix2 k o)) * x3 (ix2 r k) := by
  unfold tileOpen
  rw [View.read_writes_eq_canon _ _ _ (coverOpenTile c i arg2 harg2 arg3 harg3 arg4 harg4 arg5 harg5 arg6 harg6 arg7 harg7 hf ho hc x0 x1 x2 x3 xs)]
  unfold runOpen
  dsimp only
  rw [View.canon_unit_zero hz2]
  unfold k0_pay2
  simp only [View.readAt_eq_ld, harg5.read_unread, harg7.read_unread, View.ld_unit_zero (S := S2048x2048) hz2]
  exact MatmulFirstLast.matmul_zero_apply isFirstLast none _ _ o r

/-- After a point that continues a reduction: what the tile held plus that product. -/
theorem tileCont_apply (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S4x1x32 .f32) (harg4 : arg4.IsWhole) (arg5 : Memref sig .tc .vmem S2048x2048 .f32) (harg5 : arg5.IsWhole) (arg6 : Memref sig .tc .vmem S32x2048 .f32) (harg6 : arg6.IsWhole) (arg7 : Memref sig .tc .vmem S16384x32 .bf16) (harg7 : arg7.IsWhole) (hf : ¬isFirst i) (ho : ¬isOpen i) (hc : isCont i)
    (x0 : Vec Ideal S4096x128 .f32) (x1 : Vec Ideal S128x128 .f32) (x2 : Vec Ideal S4x1x32 .f32) (x3 : Vec Ideal S2048x2048 .f32)
    (xo : Vec Ideal S32x2048 .f32) (xs : Vec Ideal S16384x32 .bf16) (o : Fin 32) (r : Fin 2048) :
    tileCont c i arg2 harg2 arg3 harg3 arg4 harg4 arg5 harg5 arg6 harg6 arg7 harg7 hf ho hc x0 x1 x2 x3 xo xs (ix2 o r)
      = xo (ix2 o r) + ∑ k : Fin 2048, xs ((Rect.unit (s := S16384x32) (k0_off1 i) S2048x32.size (k0_off1_inb i)).idx (ix2 k o)) * x3 (ix2 r k) := by
  unfold tileCont
  rw [View.read_writes_eq_canon _ _ _ (coverContTile c i arg2 harg2 arg3 harg3 arg4 harg4 arg5 harg5 arg6 harg6 arg7 harg7 hf ho hc x0 x1 x2 x3 xo xs)]
  unfold runCont
  dsimp only
  rw [View.canon_unit_zero hz2]
  unfold k0_pay3 k0_pay2
  simp only [View.readAt_eq_ld, harg5.read_unread, harg6.read_unread, harg7.read_unread, View.ld_unit_zero (S := S2048x2048) hz2, View.ld_unit_zero (S := S32x2048) hz2, shapeCast_self]
  exact congrArg (xo (ix2 o r) + ·) (MatmulFirstLast.matmul_zero_apply isFirstLast none _ _ o r)

end Cert.KernelIdeal.Meaning

end
-- ==== Proof.Fold.lean ====
/-
  The scratch and the output tile after every point of the grid, as extended reals of the four argument arrays.

  The blocks the body is handed are read off the arrays: x, W and the reshaped bias whole; the adjacency tile of point
  t = 8 i + k is rows 2048 i .. and columns 2048 k .. of A, and the rows of the scratch the point reads start at 2048 k.
  By induction on the point: the scratch holds the stacked projection from the first point on, and the output tile
  after point 8 i + k holds, at (o, r), the running sum over reduction tiles 0 .. k of
  Σ_c proj (2048 k' + c, o) · A (2048 i + r, 2048 k' + c).
-/
import proofs.«111286_g16793322127443_cont_week2b_1270_43_alg».proof.Proof.Pieces

set_option maxRecDepth 16384

noncomputable section

namespace Cert.KernelIdeal.Meaning

open Cert.KernelIdeal Cert.KernelIdeal.Gen Cert.KernelIdeal.Body Cert.MolConv
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The printed index maps and the scratch offset, decided over the sixteen points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val / 8 ∧ win0_3.index t (1 : Fin 2) = t.val % 8
    ∧ win0_4.index t (0 : Fin 2) = 0 ∧ win0_4.index t (1 : Fin 2) = t.val / 8
    ∧ k0_off1 (grid0.coords t) 0 = 2048 * (t.val % 8) ∧ k0_off1 (grid0.coords t) 1 = 0 :=
  (by decide +kernel : ∀ t : Fin grid0.N, _)

/-! ## The input blocks -/

/-- The atom features' window is the whole array at every point. -/
theorem blk0 (c : Dev nD) (t : Fin cfg0.N) :
    (iblk m c 0 t : Vec Ideal S4096x128 .f32) = m ((c : Thread nD τ).loc main_arg0) := by
  obtain ⟨e0, e1, -⟩ := idx_facts t
  funext j
  unfold iblk
  rw [View.read_apply]
  show V m c main_arg0 _ = m ((c : Thread nD τ).loc main_arg0) j
  rw [V_main_arg0]
  congr 1
  funext a
  apply Fin.ext
  match a with
  | ⟨0, _⟩ => show win0_0.index t (0 : Fin 2) * 4096 + 1 * (j 0).val = (j 0).val; rw [e0]; omega
  | ⟨1, _⟩ => show win0_0.index t (1 : Fin 2) * 128 + 1 * (j 1).val = (j 1).val; rw [e1]; omega

/-- So is the weight's. -/
theorem blk1 (c : Dev nD) (t : Fin cfg0.N) :
    (iblk m c 1 t : Vec Ideal S128x128 .f32) = m ((c : Thread nD τ).loc main_arg2) := by
  obtain ⟨-, -, e0, e1, -⟩ := idx_facts t
  funext j
  unfold iblk
  rw [View.read_apply]
  show V m c main_arg2 _ = m ((c : Thread nD τ).loc main_arg2) j
  rw [V_main_arg2]
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The bias the region finds is the argument reshaped to 4 x 1 x 32 by the host line before it. -/
theorem V_bias (c : Dev nD) :
    (V m c main_v0 : S4x1x32.Idx → Elt Ideal .f32) = shapeCast S4x1x32 (m ((c : Thread nD τ).loc main_arg3)) shapeCasts_S128_S4x1x32 := by
  show StableHlo.after hostOps0 (fun b => m (c, b)) (Proc.devRef .tc main_v0) = _
  after_results
  rfl

/-- The bias window's entry (t', 0, o) is b (32 t' + o). -/
theorem blk2 (c : Dev nD) (t : Fin cfg0.N) (t' : Fin 4) (o : Fin 32) (q : Fin 128) (hq : q.val = 32 * t'.val + o.val) :
    (iblk m c 2 t : Vec Ideal S4x1x32 .f32) (ix3 t' 0 o) = m ((c : Thread nD τ).loc main_arg3) (ix1 q) := by
  obtain ⟨-, -, -, -, e0, e1, e2, -⟩ := idx_facts t
  unfold iblk
  rw [View.read_apply]
  show V m c main_v0 _ = _
  rw [V_bias]
  refine shapeCast_apply _ shapeCasts_S128_S4x1x32 _ (ix1 q) ?_
  rw [Shape.rowMajor_val_one, Shape.rowMajor_val_three]
  show q.val = ((win0_2.index t (0 : Fin 3) * 4 + 1 * t'.val) * 1 + (win0_2.index t (1 : Fin 3) * 1 + 1 * 0)) * 32 + (win0_2.index t (2 : Fin 3) * 32 + 1 * o.val)
  rw [e0, e1, e2, hq]
  omega

/-- Row 2048 i + r of the adjacency matrix, for the row tile i of point t. -/
def rowOf (t : Fin cfg0.N) (r : Fin 2048) : Fin 4096 :=
  ⟨2048 * (t.val / 8) + r.val, by have h : t.val < 16 := lt_of_lt_of_eq t.isLt (show cfg0.N = 16 from N_0); have := r.isLt; omega⟩

/-- The adjacency window at point t = 8 i + k is rows 2048 i .., columns 2048 k .. of the matrix. -/
theorem blk3 (c : Dev nD) (t : Fin cfg0.N) (r k : Fin 2048) :
    (iblk m c 3 t : Vec Ideal S2048x2048 .f32) (ix2 r k)
      = m ((c : Thread nD τ).loc main_arg1) (ix2 (rowOf t r) (col (t.val % 8) (Nat.mod_lt _ (by decide)) k)) := by
  obtain ⟨-, -, -, -, -, -, -, e0, e1, -⟩ := idx_facts t
  unfold iblk
  rw [View.read_apply]
  show V m c main_arg1 _ = _
  rw [V_main_arg1]
  congr 1
  funext a
  apply Fin.ext
  match a with
  | ⟨0, _⟩ => show win0_3.index t (0 : Fin 2) * 2048 + 1 * r.val = 2048 * (t.val / 8) + r.val; rw [e0]; omega
  | ⟨1, _⟩ => show win0_3.index t (1 : Fin 2) * 2048 + 1 * k.val = 2048 * (t.val % 8) + k.val; rw [e1]; omega

/-! ## What the scratch and the output tile hold -/

/-- The stacked projection of the argument arrays, as contents of the scratch. -/
def scratchOf (c : Dev nD) : Vec Ideal S16384x32 .bf16 :=
  fun y => proj (m ((c : Thread nD τ).loc main_arg0)) (m ((c : Thread nD τ).loc main_arg2)) (m ((c : Thread nD τ).loc main_arg3)) (y 0) (y 1)

/-- The projection of the blocks the body is handed is the projection of the arrays. -/
theorem projOf_blocks (c : Dev nD) (t : Fin cfg0.N) :
    projOf (iblk m c 0 t) (iblk m c 1 t) (iblk m c 2 t) = scratchOf m c := by
  funext y
  unfold projOf scratchOf proj
  rw [blk0, blk1, blk2 m c t (btype (y 0)) (y 1) (chan (y 0) (y 1)) rfl]

/-- The output tile after point `n`: the running sum over the reduction tiles so far, at the point's rows. -/
def tileAt (c : Dev nD) (n : ℕ) (hn : n < cfg0.N) : Vec Ideal S32x2048 .f32 :=
  fun y => running (proj (m ((c : Thread nD τ).loc main_arg0)) (m ((c : Thread nD τ).loc main_arg2)) (m ((c : Thread nD τ).loc main_arg3)))
    (m ((c : Thread nD τ).loc main_arg1)) (rowOf ⟨n, hn⟩ (y 1)) (y 0) (n % 8) (Nat.mod_lt _ (by decide))

/-- One point's product, of a scratch that holds the projection: the point's reduction tile's share of the result. -/
theorem product_term (c : Dev nD) (t : Fin cfg0.N) (o : Fin 32) (r : Fin 2048) :
    (∑ k : Fin 2048, scratchOf m c ((Rect.unit (s := S16384x32) (k0_off1 (grid0.coords t)) S2048x32.size (k0_off1_inb (grid0.coords t))).idx (ix2 k o))
        * (iblk m c 3 t : Vec Ideal S2048x2048 .f32) (ix2 r k))
      = term (proj (m ((c : Thread nD τ).loc main_arg0)) (m ((c : Thread nD τ).loc main_arg2)) (m ((c : Thread nD τ).loc main_arg3)))
          (m ((c : Thread nD τ).loc main_arg1)) (rowOf t r) o (t.val % 8) (Nat.mod_lt _ (by decide)) := by
  obtain ⟨-, -, -, -, -, -, -, -, -, -, -, e0, e1⟩ := idx_facts t
  unfold term
  refine Finset.sum_congr rfl fun k _ => ?_
  rw [blk3]
  congr 1
  unfold scratchOf
  congr 1
  · apply Fin.ext
    show k0_off1 (grid0.coords t) 0 + 1 * k.val = 2048 * (t.val % 8) + k.val
    rw [e0]; omega
  · apply Fin.ext
    show k0_off1 (grid0.coords t) 1 + 1 * o.val = o.val
    rw [e1]; omega

/-- A running sum one tile further on. -/
theorem running_step (H : Fin 16384 → Fin 32 → EReal) (A : FVec Ideal ⟨2, ![4096, 16384]⟩ .f32) (n : Fin 4096) (o : Fin 32)
    (k k' : ℕ) (hk : k < 8) (hk' : k' < 8) (e : k' = k + 1) :
    running H A n o k' hk' = running H A n o k hk + term H A n o k' hk' := by
  subst e; rfl

theorem running_zero (H : Fin 16384 → Fin 32 → EReal) (A : FVec Ideal ⟨2, ![4096, 16384]⟩ .f32) (n : Fin 4096) (o : Fin 32)
    (k : ℕ) (hk : k < 8) (e : k = 0) : running H A n o k hk = term H A n o k hk := by
  subst e; rfl

/-- THE INVARIANT, by induction on the point: the output tile at the running sum, the scratch at the projection. -/
theorem outsAt_eq (c : Dev nD) : ∀ (n : ℕ) (hn : n < cfg0.N), outsAt m c n hn = (tileAt m c n hn, scratchOf m c)
  | 0, hn => by
    rw [outsAt_first m c ⟨0, hn⟩ rfl]
    refine Prod.ext ?_ ?_
    · dsimp only
      funext y
      obtain ⟨o, r, rfl⟩ : ∃ (o : Fin 32) (r : Fin 2048), y = ix2 o r := ⟨y 0, y 1, eq_ix2 y⟩
      rw [tileFirst_apply, projOf_blocks, product_term]
      exact (running_zero _ _ _ _ (0 % 8) _ rfl).symm
    · dsimp only
      rw [projFirst_eq, projOf_blocks]
  | n + 1, hn => by
    have hN : n + 1 < 16 := lt_of_lt_of_eq hn (show cfg0.N = 16 from N_0)
    have ih : outsAt m c ((⟨n + 1, hn⟩ : Fin cfg0.N).val - 1) (Nat.lt_of_le_of_lt (Nat.sub_le _ _) (⟨n + 1, hn⟩ : Fin cfg0.N).isLt)
        = (tileAt m c n (Nat.lt_of_succ_lt hn), scratchOf m c) := outsAt_eq c n (Nat.lt_of_succ_lt hn)
    by_cases h8 : (n + 1) % 8 = 0
    · rw [outsAt_open m c ⟨n + 1, hn⟩ (Nat.succ_ne_zero n) h8, ih]
      refine Prod.ext ?_ ?_
      · dsimp only
        funext y
        obtain ⟨o, r, rfl⟩ : ∃ (o : Fin 32) (r : Fin 2048), y = ix2 o r := ⟨y 0, y 1, eq_ix2 y⟩
        rw [tileOpen_apply, product_term]
        exact (running_zero _ _ _ _ ((n + 1) % 8) _ h8).symm
      · rfl
    · rw [outsAt_cont m c ⟨n + 1, hn⟩ h8, ih]
      refine Prod.ext ?_ ?_
      · dsimp only
        funext y
        obtain ⟨o, r, rfl⟩ : ∃ (o : Fin 32) (r : Fin 2048), y = ix2 o r := ⟨y 0, y 1, eq_ix2 y⟩
        rw [tileCont_apply, product_term]
        have hrow : rowOf ⟨n, Nat.lt_of_succ_lt hn⟩ r = rowOf ⟨n + 1, hn⟩ r :=
          Fin.ext (by show 2048 * (n / 8) + r.val = 2048 * ((n + 1) / 8) + r.val; omega)
        refine Eq.trans ?_ (running_step _ _ (rowOf ⟨n + 1, hn⟩ r) o (n % 8) ((n + 1) % 8) (Nat.mod_lt _ (by decide)) (Nat.mod_lt _ (by decide)) (by omega)).symm
        congr 1
        show running _ _ (rowOf ⟨n, Nat.lt_of_succ_lt hn⟩ r) o (n % 8) _ = _
        rw [hrow]
      · rfl

end Cert.KernelIdeal.Meaning

end
-- ==== Proof.Final.lean ====
/-
  The result array after the run.

  The pipeline writes the output tile back after the eighth reduction tile of each row tile (points 7 and 15); by then
  the running sum is the whole sum over the 16384 columns, so the written block is a block of ONE array: entry (o, n) of
  the 32 x 4096 array is out (n, o).  The two blocks cover the array, so that is what it ends holding; the host line after
  the region transposes it into the 4096 x 32 result.
-/
import proofs.«111286_g16793322127443_cont_week2b_1270_43_alg».proof.Proof.Fold

set_option maxRecDepth 16384

noncomputable section

namespace Cert.KernelIdeal.Meaning

open Cert.KernelIdeal Cert.KernelIdeal.Gen Cert.KernelIdeal.Body Cert.MolConv
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The kernel's own output array, 32 x 4096: the result transposed. -/
def tilesOf (c : Dev nD) : Buf (Elt Ideal) ((c : Thread nD τ).loc main_v1) :=
  fun (i : S32x4096.Idx) => out (m ((c : Thread nD τ).loc main_arg0)) (m ((c : Thread nD τ).loc main_arg1)) (m ((c : Thread nD τ).loc main_arg2))
    (m ((c : Thread nD τ).loc main_arg3)) (i 1) (i 0)

/-- The program's result, 4096 x 32. -/
def resultOf (c : Dev nD) : Buf (Elt Ideal) ((c : Thread nD τ).loc main_v2) :=
  fun (i : S4096x32.Idx) => out (m ((c : Thread nD τ).loc main_arg0)) (m ((c : Thread nD τ).loc main_arg1)) (m ((c : Thread nD τ).loc main_arg2))
    (m ((c : Thread nD τ).loc main_arg3)) (i 0) (i 1)

theorem running_congr (H : Fin 16384 → Fin 32 → EReal) (A : FVec Ideal ⟨2, ![4096, 16384]⟩ .f32) (n : Fin 4096) (o : Fin 32)
    (k k' : ℕ) (hk : k < 8) (hk' : k' < 8) (e : k = k') : running H A n o k hk = running H A n o k' hk' := by
  subst e; rfl

/-- After the eighth reduction tile the output tile holds the whole sums of its rows. -/
theorem tileAt_last (c : Dev nD) (t : Fin cfg0.N) (h7 : t.val % 8 = 7) (j : S32x2048.Idx) :
    tileAt m c t.val t.isLt j = out (m ((c : Thread nD τ).loc main_arg0)) (m ((c : Thread nD τ).loc main_arg1)) (m ((c : Thread nD τ).loc main_arg2))
      (m ((c : Thread nD τ).loc main_arg3)) (rowOf t (j 1)) (j 0) := by
  unfold tileAt
  exact (running_congr _ _ _ _ (t.val % 8) 7 _ (by decide) h7).trans (running_last _ _ _ _)

/-- The kernel's output array at an index whose coordinates are known. -/
theorem tilesOf_apply (c : Dev nD) (i : S32x4096.Idx) (n : Fin 4096) (o : Fin 32) (hn : n = i 1) (ho : o = i 0) :
    out (m ((c : Thread nD τ).loc main_arg0)) (m ((c : Thread nD τ).loc main_arg1)) (m ((c : Thread nD τ).loc main_arg2))
      (m ((c : Thread nD τ).loc main_arg3)) n o = tilesOf m c i := by
  subst hn ho; rfl

/-- What a write-back writes is the block of `tilesOf` at the point's row tile. -/
theorem flushed_eq (c : Dev nD) (t : Fin cfg0.N) (hf : (cfg0.win 4).flush t = true) :
    (dats m 0 c).flushed 4 t = ((cfg0.win 4).blk t).view.read (Elt Ideal) (tilesOf m c) := by
  have h7 : t.val % 8 = 7 := (flush0_4 t).mp hf
  obtain ⟨-, -, -, -, -, -, -, -, -, e0, e1, -⟩ := idx_facts t
  show (cfg0.win 4).cut (grid0.coords t) ((dats m 0 c).after 4 t) = _
  rw [after4, outsAt_eq]
  generalize hG : tilesOf m c = G
  funext j
  refine (tileAt_last m c t h7 _).trans ?_
  show _ = G (((cfg0.win 4).blk t).view.emb j)
  subst hG
  have ha : rowOf t ((cfg0.win 4).xinj (grid0.coords t) j 1) = (((cfg0.win 4).blk t).view.emb j) 1 :=
    Fin.ext (by show 2048 * (t.val / 8) + (j 1).val = win0_4.index t (1 : Fin 2) * 2048 + 1 * (j 1).val; rw [e1]; omega)
  have hb : (cfg0.win 4).xinj (grid0.coords t) j 0 = (((cfg0.win 4).blk t).view.emb j) 0 :=
    Fin.ext (by show (j 0).val = win0_4.index t (0 : Fin 2) * 32 + 1 * (j 0).val; rw [e0]; omega)
  exact tilesOf_apply m c (((cfg0.win 4).blk t).view.emb j) _ _ ha hb

/-- An index of the array is in point `t`'s block iff each coordinate is in the block's range. -/
theorem mem_blk (t : Fin cfg0.N) (i : S32x4096.Idx) :
    i ∈ ((cfg0.win 4).blk t).view.set ↔ ∀ a : Fin 2, win0_4.index t a * S32x2048.size a ≤ (i a).val ∧ (i a).val < win0_4.index t a * S32x2048.size a + S32x2048.size a := by
  show i ∈ ((View.whole main_v1).slice (win0_4.rect t)).set ↔ _
  rw [View.set_slice_whole, Rect.mem_set_unit]
  exact Iff.rfl

/-- Every column n of the array is written back by the last point of its row tile, point 8 (n / 2048) + 7. -/
theorem cover (i : S32x4096.Idx) : ∃ t : Fin cfg0.N, (cfg0.win 4).flush t = true ∧ i ∈ ((cfg0.win 4).blk t).view.set := by
  have h0 : (i 0).val < 32 := (i 0).isLt
  have h1 : (i 1).val < 4096 := (i 1).isLt
  have ht : 8 * ((i 1).val / 2048) + 7 < cfg0.N := by rw [show cfg0.N = 16 from N_0]; omega
  obtain ⟨-, -, -, -, -, -, -, -, -, e0, e1, -⟩ := idx_facts ⟨8 * ((i 1).val / 2048) + 7, ht⟩
  refine ⟨⟨8 * ((i 1).val / 2048) + 7, ht⟩, (flush0_4 _).mpr (by show (8 * ((i 1).val / 2048) + 7) % 8 = 7; omega), ?_⟩
  rw [mem_blk]
  intro a
  match a with
  | ⟨0, _⟩ =>
    show win0_4.index ⟨8 * ((i 1).val / 2048) + 7, ht⟩ (0 : Fin 2) * 32 ≤ (i 0).val ∧ (i 0).val < win0_4.index ⟨8 * ((i 1).val / 2048) + 7, ht⟩ (0 : Fin 2) * 32 + 32
    rw [e0]; omega
  | ⟨1, _⟩ =>
    show win0_4.index ⟨8 * ((i 1).val / 2048) + 7, ht⟩ (1 : Fin 2) * 2048 ≤ (i 1).val ∧ (i 1).val < win0_4.index ⟨8 * ((i 1).val / 2048) + 7, ht⟩ (1 : Fin 2) * 2048 + 2048
    rw [e1]
    show (8 * ((i 1).val / 2048) + 7) / 8 * 2048 ≤ (i 1).val ∧ (i 1).val < (8 * ((i 1).val / 2048) + 7) / 8 * 2048 + 2048
    omega

/-- The kernel's output array after the region. -/
theorem final (c : Dev nD) : (dats m 0 c).arrAt 4 cfg0.N = tilesOf m c :=
  (dats m 0 c).arrAt_eq_of_cover 4 (tilesOf m c) (flushed_eq m c) cover

/-- The host's transposition after the region turns it into the result. -/
theorem result_eq (c : Dev nD) :
    Pipeline.afterTail₀ cfgs (dats m) 0 (V0 m) [hostOps1] c main_v2 = resultOf m c := by
  unfold Pipeline.afterTail₀
  show StableHlo.after hostOps1 _ (Proc.devRef .tc main_v2) = _
  after_results
  rw [(Pipeline.withArrays_arr spec0 launch0.win.arr_inj c _ _ 4).trans (final m c)]
  funext i
  obtain ⟨n, o, rfl⟩ : ∃ (n : Fin 4096) (o : Fin 32), i = ix2 n o := ⟨i 0, i 1, eq_ix2 i⟩
  exact transpose_apply [1, 0] (tilesOf m c) transposes_S32x4096_S4096x32_1_0 (ix2 n o) (ix2 o n) (fun b => match b with
    | ⟨0, _⟩ => rfl
    | ⟨1, _⟩ => rfl)

/-- The run, read: the result at `resultOf`, the four arguments unchanged. -/
theorem run : θ_run defs (onTc (τ := τ) (main (F := Ideal))) ⟨m, fun _ => 0, ρ⟩ fun r => ∀ c : Dev nD,
      r.2.mem ((c.tc : Thread nD τ).loc main_v2) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.Meaning

end
-- ==== Proof.Reference.lean ====
/-
  The reference program computes `Cert.MolConv.out`.

  Read one operation at a time: the last product's entry (n, o) is Σ_j A (n, j) · v7 (j, o); v7 stacks the four column
  groups of v4 = x W^T + b, so v7 (j, o) is v4 at row `j mod 4096` and column `32 (j / 4096) + o` (the two reshapes and the
  transposition between them are one re-indexing), and v4 there is Σ_f x (a, f) · W (c, f) + b (c).
-/
import proofs.«111286_g16793322127443_cont_week2b_1270_43_alg».proof.Proof.Gen.ReferenceIdeal.Read
import proofs.«111286_g16793322127443_cont_week2b_1270_43_alg».proof.Proof.Spec

noncomputable section

namespace Cert.ReferenceIdeal.Meaning

open Cert.ReferenceIdeal Cert.ReferenceIdeal.Read Idealize.ShloMosaic Idealize.ShloMosaic.ValueIdx Cert.MolConv
open scoped BigOperators

/-- Stacked row `j`, feature `o` of the stacked projection is row `atom j`, column `chan j o` of x W^T + b. -/
theorem stacked_index (n : Fin 4096) (o : Fin 32) (k : Fin 16384) :
    idx_main_v5 (idx_main_v6 (idx_main_v7 (ridx_main_v8 (ix2 n o) k))) = ix2 (atom k) (chan k o) := by
  have hk : k.val < 16384 := k.isLt
  have ho : o.val < 32 := o.isLt
  have h1 : (k.val * 32 + o.val) / 32 = k.val := by omega
  have h2 : (k.val * 32 + o.val) % 32 = o.val := by omega
  have h3 : (k.val * 32 + o.val) / 131072 = k.val / 4096 := by omega
  have hq : k.val / 4096 < 4 := by omega
  funext a
  apply Fin.ext
  match a with
  | ⟨0, _⟩ =>
    show (((k.val * 32 + o.val) / 32 % 4096 * 4 + (k.val * 32 + o.val) / 131072) * 32 + (k.val * 32 + o.val) % 32) / 128 = k.val % 4096
    rw [h1, h2, h3]
    omega
  | ⟨1, _⟩ =>
    show (((k.val * 32 + o.val) / 32 % 4096 * 4 + (k.val * 32 + o.val) / 131072) * 32 + (k.val * 32 + o.val) % 32) % 128 = 32 * (k.val / 4096) + o.val
    rw [h1, h2, h3]
    omega

/-- The reference's result at (n, o). -/
theorem result_apply (x0 : (⟨S4096x128, .f32⟩ : BufTy).Contents (Elt Ideal)) (x1 : (⟨S4096x16384, .f32⟩ : BufTy).Contents (Elt Ideal))
    (x2 : (⟨S128x128, .f32⟩ : BufTy).Contents (Elt Ideal)) (x3 : (⟨S128, .f32⟩ : BufTy).Contents (Elt Ideal)) (n : Fin 4096) (o : Fin 32) :
    val_main_v8 (F := Ideal) x0 x1 x2 x3 (ix2 n o) = out x0 x1 x2 x3 n o := by
  rw [val_main_v8_apply]
  unfold out
  refine Finset.sum_congr rfl fun k _ => ?_
  have e1 : lidx_main_v8 (ix2 n o) k = ix2 n k := funext fun a => Fin.ext (by match a with | ⟨0, _⟩ => rfl | ⟨1, _⟩ => rfl)
  rw [e1, val_main_v7_apply, val_main_v6_apply, val_main_v5_apply, val_main_v4_apply, stacked_index,
    val_main_v1_apply, val_main_v3_apply, val_main_v2_apply]
  unfold proj
  have e2 : ∀ f : Fin 128, lidx_main_v1 (ix2 (atom k) (chan k o)) f = ix2 (atom k) f :=
    fun f => funext fun a => Fin.ext (by match a with | ⟨0, _⟩ => rfl | ⟨1, _⟩ => rfl)
  have e3 : ∀ f : Fin 128, idx_main_v0 (ridx_main_v1 (ix2 (atom k) (chan k o)) f) = ix2 (chan k o) f :=
    fun f => funext fun a => Fin.ext (by match a with | ⟨0, _⟩ => rfl | ⟨1, _⟩ => rfl)
  have e4 : idx_main_v2 (idx_main_v3 (ix2 (atom k) (chan k o))) = ix1 (chan k o) :=
    funext fun a => Fin.ext (by match a with | ⟨0, _⟩ => rfl)
  simp only [val_main_v0_apply, e2, e3, e4, Ideal.addf_def]

end Cert.ReferenceIdeal.Meaning

end
-- ==== Proof.lean ====
/-
  The certificate of the fused molecular-convolution kernel against its reference.

  Both programs compute, for atom features x (4096 x 128), a dense adjacency A (4096 x 16384, four bond types side by
  side), weights W (128 x 128) and bias b (128),

      out (n, o) = Σ_j A (n, j) · proj (j, o),   proj (4096 t + a, o) = Σ_f x (a, f) · W (32 t + o, f) + b (32 t + o).

  The reference does it with two whole matrix products and a re-stacking of the projection's four column groups.
  The kernel runs a 2 x 8 grid: at the first point it computes the stacked projection into a scratch buffer (four
  blocks of 4096 rows), and at every point it multiplies 2048 rows of the scratch with a 2048 x 2048 tile of A,
  overwriting the output tile where a reduction opens and adding to it where it continues; the tile is written back
  after the eighth reduction tile, and the host transposes the 32 x 4096 output.

  The frames: each kernel program (at the word level and idealized) runs through its sixteen points, every point one of
  three runs of the body (first / opens a reduction / continues one), the scratch carried in the region's invariant and
  the output tile in the pipeline's bookkeeping; the reference is its list of host operations.
  The value: over the extended reals a change of float format is the identity, the scratch holds the stacked projection
  from the first point on, the output tile after reduction tile k holds the running sum over tiles 0 .. k, and after
  the eighth the whole sum over the 16384 columns, each product commuted. Only commutativity and associativity of the
  extended reals' sum and product are used, so the precondition (finite inputs) is never opened.
  The idealization rewrote nothing, so it is preserved trivially.
-/
import proofs.«111286_g16793322127443_cont_week2b_1270_43_alg».proof.Defs
import proofs.«111286_g16793322127443_cont_week2b_1270_43_alg».proof.Proof.Gen.Kernel
import proofs.«111286_g16793322127443_cont_week2b_1270_43_alg».proof.Proof.Gen.KernelIdeal
import proofs.«111286_g16793322127443_cont_week2b_1270_43_alg».proof.Proof.Gen.ReferenceIdeal
import proofs.«111286_g16793322127443_cont_week2b_1270_43_alg».proof.Proof.Gen.Pre_finite_inputs
import proofs.«111286_g16793322127443_cont_week2b_1270_43_alg».proof.Proof.Gen.ReferenceIdeal.Run
import proofs.«111286_g16793322127443_cont_week2b_1270_43_alg».proof.Proof.Gen.ReferenceIdeal.Read
import proofs.«111286_g16793322127443_cont_week2b_1270_43_alg».proof.Proof.PointsBits
import proofs.«111286_g16793322127443_cont_week2b_1270_43_alg».proof.Proof.Final
import proofs.«111286_g16793322127443_cont_week2b_1270_43_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to its end and leaves its arguments as they were. -/
theorem frame_kernel : @Cert.frame_Kernel Cert.Kernel.Gen.facts Cert.Pre_finite_inputs.Gen.facts :=
  fun m ρ _ => Cert.Kernel.Body.frame m ρ

/-- So does the idealized kernel. -/
theorem frame_kernelIdeal : @Cert.frame_KernelIdeal Cert.KernelIdeal.Gen.facts Cert.Pre_finite_inputs.Gen.facts :=
  fun m ρ _ => Cert.KernelIdeal.Body.frame m ρ

/-- The reference is nine host operations in a row. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Over the extended reals both programs end with `out` of the arguments in their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Meaning.resultOf m c, Cert.KernelIdeal.Meaning.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2]
  funext i
  obtain ⟨n, o, rfl⟩ : ∃ (n : Fin 4096) (o : Fin 32), i = ix2 n o := ⟨i 0, i 1, eq_ix2 i⟩
  exact Cert.ReferenceIdeal.Meaning.result_apply _ _ _ _ n o

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
